-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S100000x1 : Shape := ⟨2, ![100000, 1]⟩
abbrev S1x64 : Shape := ⟨2, ![1, 64]⟩
abbrev S10000x1 : Shape := ⟨2, ![10000, 1]⟩
abbrev S1x1 : Shape := ⟨2, ![1, 1]⟩

abbrev nBuf : Space → Nat
  | .hbm => 195
  | .vmem => 15
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S100000, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S_, .f32⟩
  | 25 => ⟨S1600000, .f32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S100000x64, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000, .f32⟩
  | 57 => ⟨S1600000, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S1600000x1, .f32⟩
  | 68 => ⟨S1600000x64, .f32⟩
  | 69 => ⟨S1600000x64, .f32⟩
  | 70 => ⟨S_, .f32⟩
  | 71 => ⟨S100000x64, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S100000x64, .f32⟩
  | 81 => ⟨S100000, .f32⟩
  | 82 => ⟨S100000x1, .f32⟩
  | 83 => ⟨S100000x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S100000x64, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000, .f32⟩
  | 111 => ⟨S1600000, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x64, .f32⟩
  | 121 => ⟨S1600000x1, .f32⟩
  | 122 => ⟨S1600000x64, .f32⟩
  | 123 => ⟨S1600000x64, .f32⟩
  | 124 => ⟨S_, .f32⟩
  | 125 => ⟨S100000x64, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S100000x64, .f32⟩
  | 7 => ⟨S100000, .f32⟩
  | 8 => ⟨S100000x1, .f32⟩
  | 9 => ⟨S100000x64, .f32⟩
  | 10 => ⟨S100000x64, .f32⟩
  | 11 => ⟨S100000x64, .f32⟩
  | 12 => ⟨S1x64, .f32⟩
  | 13 => ⟨S100000x64, .f32⟩
  | 14 => ⟨S100000x64, .f32⟩
  | 15 => ⟨S_, .f32⟩
  | 16 => ⟨S100000x64, .f32⟩
  | 17 => ⟨S100000x64, .f32⟩
  | 18 => ⟨S100000x1, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x1, .f32⟩
  | 47 => ⟨S1600000x1, .f32⟩
  | 48 => ⟨S1600000x1, .f32⟩
  | 49 => ⟨S_, .f32⟩
  | 50 => ⟨S100000x1, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S100000x1, .f32⟩
  | 60 => ⟨S100000, .f32⟩
  | 61 => ⟨S100000x1, .f32⟩
  | 62 => ⟨S100000x1, .f32⟩
  | 63 => ⟨S100000x1, .f32⟩
  | 64 => ⟨S1x1, .f32⟩
  | 65 => ⟨S100000x1, .f32⟩
  | 66 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x1, .f32⟩
  | .local _ .vmem, ⟨13, _⟩ => ⟨S10000x1, .f32⟩
  | .local _ .vmem, ⟨14, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_c_12 : Ref sig .tc := ⟨.hbm, 72, rfl⟩
abbrev main_v48 : Ref sig .tc := ⟨.hbm, 73, rfl⟩
abbrev main_v49 : Ref sig .tc := ⟨.hbm, 74, rfl⟩
abbrev main_c_13 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call1_cst : Ref sig .tc := ⟨.hbm, 89, rfl⟩
abbrev main_call1_v0 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_18 : Ref sig .tc := ⟨.hbm, 112, rfl⟩
abbrev main_v80 : Ref sig .tc := ⟨.hbm, 113, rfl⟩
abbrev main_v81 : Ref sig .tc := ⟨.hbm, 114, rfl⟩
abbrev main_c_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_20 : Ref sig .tc := ⟨.hbm, 124, rfl⟩
abbrev main_v90 : Ref sig .tc := ⟨.hbm, 125, rfl⟩
abbrev main_c_21 : Ref sig .tc := ⟨.hbm, 126, rfl⟩
abbrev main_v91 : Ref sig .tc := ⟨.hbm, 127, rfl⟩
abbrev main_v92 : Ref sig .tc := ⟨.hbm, 128, rfl⟩
abbrev main_c_22 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_call2_cst : Ref sig .tc := ⟨.hbm, 143, rfl⟩
abbrev main_call2_v0 : Ref sig .tc := ⟨.hbm, 144, rfl⟩
abbrev main_v106 : Ref sig .tc := ⟨.hbm, 145, rfl⟩
abbrev main_v107 : Ref sig .tc := ⟨.hbm, 146, rfl⟩
abbrev main_c_23 : Ref sig .tc := ⟨.hbm, 147, rfl⟩
abbrev main_v108 : Ref sig .tc := ⟨.hbm, 148, rfl⟩
abbrev main_v109 : Ref sig .tc := ⟨.hbm, 149, rfl⟩
abbrev main_c_24 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_c_25 : Ref sig .tc := ⟨.hbm, 156, rfl⟩
abbrev main_v115 : Ref sig .tc := ⟨.hbm, 157, rfl⟩
abbrev main_v116 : Ref sig .tc := ⟨.hbm, 158, rfl⟩
abbrev main_c_26 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_c_27 : Ref sig .tc := ⟨.hbm, 166, rfl⟩
abbrev main_v123 : Ref sig .tc := ⟨.hbm, 167, rfl⟩
abbrev main_v124 : Ref sig .tc := ⟨.hbm, 168, rfl⟩
abbrev main_c_28 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_29 : Ref sig .tc := ⟨.hbm, 177, rfl⟩
abbrev main_v132 : Ref sig .tc := ⟨.hbm, 178, rfl⟩
abbrev main_c_30 : Ref sig .tc := ⟨.hbm, 179, rfl⟩
abbrev main_v133 : Ref sig .tc := ⟨.hbm, 180, rfl⟩
abbrev main_v134 : Ref sig .tc := ⟨.hbm, 181, rfl⟩
abbrev main_c_31 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  dot_S10000x128_S128x64_S10000x64_1_0_0_1_n_n_wf : DotDims.WF S10000x128 S128x64 S10000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v63) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v64) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v106) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v107) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S1x1 : Shape := ⟨2, ![1, 1]⟩

abbrev nBuf : Space → Nat
  | .hbm => 195
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S100000, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S_, .f32⟩
  | 25 => ⟨S1600000, .f32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S100000x64, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000, .f32⟩
  | 57 => ⟨S1600000, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S1600000x1, .f32⟩
  | 68 => ⟨S1600000x64, .f32⟩
  | 69 => ⟨S1600000x64, .f32⟩
  | 70 => ⟨S_, .f32⟩
  | 71 => ⟨S100000x64, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S100000x64, .f32⟩
  | 81 => ⟨S100000, .f32⟩
  | 82 => ⟨S100000x1, .f32⟩
  | 83 => ⟨S100000x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S100000x64, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000, .f32⟩
  | 111 => ⟨S1600000, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x64, .f32⟩
  | 121 => ⟨S1600000x1, .f32⟩
  | 122 => ⟨S1600000x64, .f32⟩
  | 123 => ⟨S1600000x64, .f32⟩
  | 124 => ⟨S_, .f32⟩
  | 125 => ⟨S100000x64, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S100000x64, .f32⟩
  | 7 => ⟨S100000, .f32⟩
  | 8 => ⟨S100000x1, .f32⟩
  | 9 => ⟨S100000x64, .f32⟩
  | 10 => ⟨S100000x64, .f32⟩
  | 11 => ⟨S100000x64, .f32⟩
  | 12 => ⟨S1x64, .f32⟩
  | 13 => ⟨S100000x64, .f32⟩
  | 14 => ⟨S100000x64, .f32⟩
  | 15 => ⟨S_, .f32⟩
  | 16 => ⟨S100000x64, .f32⟩
  | 17 => ⟨S100000x64, .f32⟩
  | 18 => ⟨S100000x1, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x1, .f32⟩
  | 47 => ⟨S1600000x1, .f32⟩
  | 48 => ⟨S1600000x1, .f32⟩
  | 49 => ⟨S_, .f32⟩
  | 50 => ⟨S100000x1, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S100000x1, .f32⟩
  | 60 => ⟨S100000, .f32⟩
  | 61 => ⟨S100000x1, .f32⟩
  | 62 => ⟨S100000x1, .f32⟩
  | 63 => ⟨S100000x1, .f32⟩
  | 64 => ⟨S1x1, .f32⟩
  | 65 => ⟨S100000x1, .f32⟩
  | 66 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_c_12 : Ref sig .tc := ⟨.hbm, 72, rfl⟩
abbrev main_v48 : Ref sig .tc := ⟨.hbm, 73, rfl⟩
abbrev main_v49 : Ref sig .tc := ⟨.hbm, 74, rfl⟩
abbrev main_c_13 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call1_cst : Ref sig .tc := ⟨.hbm, 89, rfl⟩
abbrev main_call1_v0 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_18 : Ref sig .tc := ⟨.hbm, 112, rfl⟩
abbrev main_v80 : Ref sig .tc := ⟨.hbm, 113, rfl⟩
abbrev main_v81 : Ref sig .tc := ⟨.hbm, 114, rfl⟩
abbrev main_c_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_20 : Ref sig .tc := ⟨.hbm, 124, rfl⟩
abbrev main_v90 : Ref sig .tc := ⟨.hbm, 125, rfl⟩
abbrev main_c_21 : Ref sig .tc := ⟨.hbm, 126, rfl⟩
abbrev main_v91 : Ref sig .tc := ⟨.hbm, 127, rfl⟩
abbrev main_v92 : Ref sig .tc := ⟨.hbm, 128, rfl⟩
abbrev main_c_22 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_call2_cst : Ref sig .tc := ⟨.hbm, 143, rfl⟩
abbrev main_call2_v0 : Ref sig .tc := ⟨.hbm, 144, rfl⟩
abbrev main_v106 : Ref sig .tc := ⟨.hbm, 145, rfl⟩
abbrev main_v107 : Ref sig .tc := ⟨.hbm, 146, rfl⟩
abbrev main_c_23 : Ref sig .tc := ⟨.hbm, 147, rfl⟩
abbrev main_v108 : Ref sig .tc := ⟨.hbm, 148, rfl⟩
abbrev main_v109 : Ref sig .tc := ⟨.hbm, 149, rfl⟩
abbrev main_c_24 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_c_25 : Ref sig .tc := ⟨.hbm, 156, rfl⟩
abbrev main_v115 : Ref sig .tc := ⟨.hbm, 157, rfl⟩
abbrev main_v116 : Ref sig .tc := ⟨.hbm, 158, rfl⟩
abbrev main_c_26 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_c_27 : Ref sig .tc := ⟨.hbm, 166, rfl⟩
abbrev main_v123 : Ref sig .tc := ⟨.hbm, 167, rfl⟩
abbrev main_v124 : Ref sig .tc := ⟨.hbm, 168, rfl⟩
abbrev main_c_28 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_29 : Ref sig .tc := ⟨.hbm, 177, rfl⟩
abbrev main_v132 : Ref sig .tc := ⟨.hbm, 178, rfl⟩
abbrev main_c_30 : Ref sig .tc := ⟨.hbm, 179, rfl⟩
abbrev main_v133 : Ref sig .tc := ⟨.hbm, 180, rfl⟩
abbrev main_v134 : Ref sig .tc := ⟨.hbm, 181, rfl⟩
abbrev main_c_31 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

class Facts : Prop extends Facts₀ where

variable [Facts]
-- ==== Proof.KernelRun.lean ====
/-
  The kernel program's run, read back with its result named.

  The program is ten segments in a row: a stretch of host operations, a pallas_call, and so on three times, then a last
  stretch.  The buffers' contents at each boundary are a fold from the launch memory: a host stretch applies its
  operations' results, a pallas_call replaces its output array by what its write-backs leave and keeps everything
  else.  Every weakly fair execution terminates, without a fault, with every buffer that outlives the calls at the
  last boundary's contents; in particular the result array, and the arguments, which nothing writes.
-/
import proofs.«162252_j30064771072295_1_alg».proof.Proof.Gen.KernelIdeal.Frame

set_option maxRecDepth 16384

noncomputable section

namespace Cert.KernelIdeal.HostRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What every core holds when the program starts: its long-lived buffers at their launch contents, its generator
    register, and nothing owed. -/
abbrev T₀ (c : Dev nD) : sProp 𝕄 :=
  iprop(StableHlo.held (c : Thread nD τ) (Pipeline.ucRefs τ sig) (W0 m ρ c) ∗ R c)

/-- A final memory agrees with the last boundary's contents on every long-lived buffer. -/
abbrev AtEnd (c : Dev nD) (s : MemSt nD τ sig (Elt F)) : Prop :=
  ∀ b ∈ Pipeline.ucRefs τ sig, s.mem (((c : Thread nD τ)).1, b) = W10 m ρ c b

set_option backward.isDefEq.respectTransparency.types false in
/-- Every weakly fair execution of the kernel program terminates, nothing faulting, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v146) = W10 m ρ c (Proc.devRef .tc main_v146)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit (pcfgs (F := F)) adm (pdats m ρ) () cellOf_inj emb₁ defs₀ 𝒱₀ L lv m ρ main (segs m ρ)
    (fun c Q => by rw [main_run m ρ c]) ?nodup (O₀ := 0) (hL := fun _ _ => rfl) (G := fun _ => iprop(emp))
    (u₀ := initOf (Pipeline.cells cfgs cellOf_inj) (Pipeline.launchToks cfgs cellOf_inj)) ?launch
    (T₀ := T₀ m ρ) (Tₙ := Tₙ m ρ) ?chain ?init (QY := AtEnd m ρ) ?read ?post
  case nodup =>
    -- each of the three calls is entered once
    simp only [segs, Pipeline.Seg.pipes_host, Pipeline.Seg.pipes_region, Pipeline.Seg.pipes_nil]; decide
  case launch =>
    -- the launch element is the pipelines' own; no core is given anything besides
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case chain =>
    -- each segment starts from what the one before it leaves; the last one leaves the last boundary's contents
    refine ⟨fun _ => .rfl, fun _ => .rfl, fun _ => .rfl, fun _ => .rfl, fun _ => .rfl, fun _ => .rfl, fun _ => .rfl,
      fun _ => .rfl, fun _ => .rfl, fun _ => .rfl, fun c => ?_⟩
    dsimp only [Pipeline.Seg.post, hseg, Pipeline.HostSeg.ofOps]
    iintro ⟨Hh, Hp, HO⟩
    isplitl [Hh Hp]
    · isplitl [Hh]; · iexact Hh
      iexact Hp
    iexact HO
  case init =>
    -- what the launch deals each core is its first thread state
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  case read =>
    -- holding every long-lived buffer whole beside a final state says what that state's memory holds there
    intro c s'
    iintro ⟨⟨Hh, -⟩, HSI⟩
    unfold StableHlo.held
    imodintro
    iapply (pointsTo_read_all (Pipeline.ucRefs τ sig) (fun b => (((c : Thread nD τ)).1, b)) (W10 m ρ c) s')
    isplitl [Hh] <;> iassumption
  case post =>
    intro s h c
    exact ⟨h c _ (mem_uc main_v146 (by decide)),
      (h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c),
      (h c _ (mem_uc main_arg5 (by decide))).trans (W10_main_arg5 m ρ c),
      (h c _ (mem_uc main_arg6 (by decide))).trans (W10_main_arg6 m ρ c),
      (h c _ (mem_uc main_arg7 (by decide))).trans (W10_main_arg7 m ρ c)⟩

end Cert.KernelIdeal.HostRun

end
-- ==== Proof.RefRun.lean ====
/-
  The reference program's run, read back.

  The reference is a straight line of host operations: three graph-convolution layers, each a matrix product followed
  by the same aggregation over the edge list.  Listed here are its operations in seven consecutive pieces — what
  comes before the first product, each product, and what follows each product — so that the buffers' contents after
  the whole line are the pieces' results composed in order.  Every weakly fair execution terminates with each buffer
  at that composition of the launch contents.
-/
import proofs.«162252_j30064771072295_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The operations before the first product: the source and destination rows of the edge list, the degree of every node (one for its self loop plus one per incoming edge, a scatter-add of ones), and its inverse square root where the degree is positive. -/
def opsNorm : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    nullary main_cst (constant S_ .f32 0x3F800000#32),
    unary main_cst main_v6 (broadcastInDim S100000 ![] bcast_S_S100000 : (⟨S_, .f32⟩ : BufTy).Contents (Elt F) → (⟨S100000, .f32⟩ : BufTy).Contents (Elt F)),
    nullary main_c (constantI S_ 32 0#32),
    unary main_c main_v7 (broadcastInDim S1600000 ![] bcast_S_S1600000 : (⟨S_, .i32⟩ : BufTy).Contents (Elt F) → (⟨S1600000, .i32⟩ : BufTy).Contents (Elt F)),
    binary main_v5 main_v7 main_v8 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v9 (broadcastInDim S1600000 ![] bcast_S_S1600000 : (⟨S_, .i32⟩ : BufTy).Contents (Elt F) → (⟨S1600000, .i32⟩ : BufTy).Contents (Elt F)),
    binary main_v5 main_v9 main_v10 (addi : (⟨S1600000, .i32⟩ : BufTy).Contents (Elt F) → (⟨S1600000, .i32⟩ : BufTy).Contents (Elt F) → (⟨S1600000, .i32⟩ : BufTy).Contents (Elt F)),
    ternary main_v8 main_v10 main_v5 main_v11 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v11 main_v12 (broadcastInDim S1600000x1 ![0] bcast_S1600000_S1600000x1_0 : (⟨S1600000, .i32⟩ : BufTy).Contents (Elt F) → (⟨S1600000x1, .i32⟩ : BufTy).Contents (Elt F)),
    nullary main_cst_1 (constant S_ .f32 0x3F800000#32),
    unary main_cst_1 main_v13 (broadcastInDim S1600000 ![] bcast_S_S1600000 : (⟨S_, .f32⟩ : BufTy).Contents (Elt F) → (⟨S1600000, .f32⟩ : BufTy).Contents (Elt F)),
    ternary main_v6 main_v12 main_v13 main_v14 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    binary main_v14 main_v15 main_v16 (cmpf .ogt : (⟨S100000, .f32⟩ : BufTy).Contents (Elt F) → (⟨S100000, .f32⟩ : BufTy).Contents (Elt F) → (⟨S100000, .i1⟩ : BufTy).Contents (Elt F)),
    unary main_v14 main_v17 (Host.sqrt : (⟨S100000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v18 main_v17 main_v19 (Host.divf : (⟨S100000, .f32⟩ : BufTy).Contents (Elt F) → (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v16) (TRef.of (T := ⟨S100000, .f32⟩) main_v19) (TRef.of (T := ⟨S100000, .f32⟩) main_call0_v1) (TRef.of (T := ⟨S100000, .f32⟩) main_v20) select ]

/-- Each of these operations touches TensorCore buffers only. -/
theorem opsNorm_sub : (opsNorm : List (HloOp τ sig (Elt F))).Forall fun op => op.bufs ⊆ tcRefs τ sig := by
  unfold opsNorm
  simp only [List.Forall, nullary_bufs_sub, unary_bufs_sub, binary_bufs_sub, ternary_bufs_sub, reshape_bufs_sub, and_self]

/-- None of them allocates a buffer. -/
theorem opsNorm_fresh : ∀ op ∈ (opsNorm : List (HloOp τ sig (Elt F))), op.fresh = ∅ := by
  intro _ h; unfold opsNorm at h
  repeat (cases h with | head => rfl | tail _ h => ?_)
  exact nomatch h

/-- The first layer's product `x @ W1`, as the host's `dot_general`. -/
abbrev mm1 : HloOp τ sig (Elt F) :=
  binary main_arg0 main_arg2 main_v21 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F))

/-- The first layer after its product: the edge weights (the two end nodes' inverse square roots multiplied), the rows gathered at the edges' sources and scaled, scatter-added at their destinations, the self-loop term, the bias, and the maximum with zero. -/
def opsAgg1 : List (HloOp τ sig (Elt F)) :=
  [ nullary main_c_5 (constantI S_ 32 0#32),
    unary main_c_5 main_v22 (broadcastInDim S1600000 ![] bcast_S_S1600000 : (⟨S_, .i32⟩ : BufTy).Contents (Elt F) → (⟨S1600000, .i32⟩ : BufTy).Contents (Elt F)),
    binary main_v1 main_v22 main_v23 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v24 (broadcastInDim S1600000 ![] bcast_S_S1600000 : (⟨S_, .i32⟩ : BufTy).Contents (Elt F) → (⟨S1600000, .i32⟩ : BufTy).Contents (Elt F)),
    binary main_v1 main_v24 main_v25 (addi : (⟨S1600000, .i32⟩ : BufTy).Contents (Elt F) → (⟨S1600000, .i32⟩ : BufTy).Contents (Elt F) → (⟨S1600000, .i32⟩ : BufTy).Contents (Elt F)),
    ternary main_v23 main_v25 main_v1 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v26 main_v27 (broadcastInDim S1600000x1 ![0] bcast_S1600000_S1600000x1_0 : (⟨S1600000, .i32⟩ : BufTy).Contents (Elt F) → (⟨S1600000x1, .i32⟩ : BufTy).Contents (Elt F)),
    binary main_v20 main_v27 main_v28 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_7 (constantI S_ 32 0#32),
    unary main_c_7 main_v29 (broadcastInDim S1600000 ![] bcast_S_S1600000 : (⟨S_, .i32⟩ : BufTy).Contents (Elt F) → (⟨S1600000, .i32⟩ : BufTy).Contents (Elt F)),
    binary main_v3 main_v29 main_v30 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v31 (broadcastInDim S1600000 ![] bcast_S_S1600000 : (⟨S_, .i32⟩ : BufTy).Contents (Elt F) → (⟨S1600000, .i32⟩ : BufTy).Contents (Elt F)),
    binary main_v3 main_v31 main_v32 (addi : (⟨S1600000, .i32⟩ : BufTy).Contents (Elt F) → (⟨S1600000, .i32⟩ : BufTy).Contents (Elt F) → (⟨S1600000, .i32⟩ : BufTy).Contents (Elt F)),
    ternary main_v30 main_v32 main_v3 main_v33 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v33 main_v34 (broadcastInDim S1600000x1 ![0] bcast_S1600000_S1600000x1_0 : (⟨S1600000, .i32⟩ : BufTy).Contents (Elt F) → (⟨S1600000x1, .i32⟩ : BufTy).Contents (Elt F)),
    binary main_v20 main_v34 main_v35 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v28 main_v35 main_v36 (mulf : (⟨S1600000, .f32⟩ : BufTy).Contents (Elt F) → (⟨S1600000, .f32⟩ : BufTy).Contents (Elt F) → (⟨S1600000, .f32⟩ : BufTy).Contents (Elt F)),
    nullary main_c_9 (constantI S_ 32 0#32),
    unary main_c_9 main_v37 (broadcastInDim S1600000 ![] bcast_S_S1600000 : (⟨S_, .i32⟩ : BufTy).Contents (Elt F) → (⟨S1600000, .i32⟩ : BufTy).Contents (Elt F)),
    binary main_v1 main_v37 main_v38 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v39 (broadcastInDim S1600000 ![] bcast_S_S1600000 : (⟨S_, .i32⟩ : BufTy).Contents (Elt F) → (⟨S1600000, .i32⟩ : BufTy).Contents (Elt F)),
    binary main_v1 main_v39 main_v40 (addi : (⟨S1600000, .i32⟩ : BufTy).Contents (Elt F) → (⟨S1600000, .i32⟩ : BufTy).Contents (Elt F) → (⟨S1600000, .i32⟩ : BufTy).Contents (Elt F)),
    ternary main_v38 main_v40 main_v1 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v41 main_v42 (broadcastInDim S1600000x1 ![0] bcast_S1600000_S1600000x1_0 : (⟨S1600000, .i32⟩ : BufTy).Contents (Elt F) → (⟨S1600000x1, .i32⟩ : BufTy).Contents (Elt F)),
    binary main_v21 main_v42 main_v43 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v36 main_v44 (broadcastInDim S1600000x1 ![0] bcast_S1600000_S1600000x1_0 : (⟨S1600000, .f32⟩ : BufTy).Contents (Elt F) → (⟨S1600000x1, .f32⟩ : BufTy).Contents (Elt F)),
    unary main_v44 main_v45 (broadcastInDim S1600000x64 ![0, 1] bcast_S1600000x1_S1600000x64_0_1 : (⟨S1600000x1, .f32⟩ : BufTy).Contents (Elt F) → (⟨S1600000x64, .f32⟩ : BufTy).Contents (Elt F)),
    binary main_v43 main_v45 main_v46 (mulf : (⟨S1600000x64, .f32⟩ : BufTy).Contents (Elt F) → (⟨S1600000x64, .f32⟩ : BufTy).Contents (Elt F) → (⟨S1600000x64, .f32⟩ : BufTy).Contents (Elt F)),
    nullary main_cst_11 (constant S_ .f32 0x00000000#32),
    unary main_cst_11 main_v47 (broadcastInDim S100000x64 ![] bcast_S_S100000x64 : (⟨S_, .f32⟩ : BufTy).Contents (Elt F) → (⟨S100000x64, .f32⟩ : BufTy).Contents (Elt F)),
    nullary main_c_12 (constantI S_ 32 0#32),
    unary main_c_12 main_v48 (broadcastInDim S1600000 ![] bcast_S_S1600000 : (⟨S_, .i32⟩ : BufTy).Contents (Elt F) → (⟨S1600000, .i32⟩ : BufTy).Contents (Elt F)),
    binary main_v3 main_v48 main_v49 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v50 (broadcastInDim S1600000 ![] bcast_S_S1600000 : (⟨S_, .i32⟩ : BufTy).Contents (Elt F) → (⟨S1600000, .i32⟩ : BufTy).Contents (Elt F)),
    binary main_v3 main_v50 main_v51 (addi : (⟨S1600000, .i32⟩ : BufTy).Contents (Elt F) → (⟨S1600000, .i32⟩ : BufTy).Contents (Elt F) → (⟨S1600000, .i32⟩ : BufTy).Contents (Elt F)),
    ternary main_v49 main_v51 main_v3 main_v52 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v52 main_v53 (broadcastInDim S1600000x1 ![0] bcast_S1600000_S1600000x1_0 : (⟨S1600000, .i32⟩ : BufTy).Contents (Elt F) → (⟨S1600000x1, .i32⟩ : BufTy).Contents (Elt F)),
    ternary main_v47 main_v53 main_v46 main_v54 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v20 main_v20 main_v55 (mulf : (⟨S100000, .f32⟩ : BufTy).Contents (Elt F) → (⟨S100000, .f32⟩ : BufTy).Contents (Elt F) → (⟨S100000, .f32⟩ : BufTy).Contents (Elt F)),
    unary main_v55 main_v56 (broadcastInDim S100000x1 ![0] bcast_S100000_S100000x1_0 : (⟨S100000, .f32⟩ : BufTy).Contents (Elt F) → (⟨S100000x1, .f32⟩ : BufTy).Contents (Elt F)),
    unary main_v56 main_v57 (broadcastInDim S100000x64 ![0, 1] bcast_S100000x1_S100000x64_0_1 : (⟨S100000x1, .f32⟩ : BufTy).Contents (Elt F) → (⟨S100000x64, .f32⟩ : BufTy).Contents (Elt F)),
    binary main_v21 main_v57 main_v58 (mulf : (⟨S100000x64, .f32⟩ : BufTy).Contents (Elt F) → (⟨S100000x64, .f32⟩ : BufTy).Contents (Elt F) → (⟨S100000x64, .f32⟩ : BufTy).Contents (Elt F)),
    binary main_v54 main_v58 main_v59 (addf : (⟨S100000x64, .f32⟩ : BufTy).Contents (Elt F) → (⟨S100000x64, .f32⟩ : BufTy).Contents (Elt F) → (⟨S100000x64, .f32⟩ : BufTy).Contents (Elt F)),
    unary main_arg3 main_v60 (broadcastInDim S1x64 ![1] bcast_S64_S1x64_1 : (⟨S64, .f32⟩ : BufTy).Contents (Elt F) → (⟨S1x64, .f32⟩ : BufTy).Contents (Elt F)),
    unary main_v60 main_v61 (broadcastInDim S100000x64 ![0, 1] bcast_S1x64_S100000x64_0_1 : (⟨S1x64, .f32⟩ : BufTy).Contents (Elt F) → (⟨S100000x64, .f32⟩ : BufTy).Contents (Elt F)),
    binary main_v59 main_v61 main_v62 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v62) (TRef.of (T := ⟨S100000x64, .f32⟩) main_call1_v0) (TRef.of (T := ⟨S100000x64, .f32⟩) main_v63) maximumf ]

/-- Each of these operations touches TensorCore buffers only. -/
theorem opsAgg1_sub : (opsAgg1 : List (HloOp τ sig (Elt F))).Forall fun op => op.bufs ⊆ tcRefs τ sig := by
  unfold opsAgg1
  simp only [List.Forall, nullary_bufs_sub, unary_bufs_sub, binary_bufs_sub, ternary_bufs_sub, reshape_bufs_sub, and_self]

/-- None of them allocates a buffer. -/
theorem opsAgg1_fresh : ∀ op ∈ (opsAgg1 : List (HloOp τ sig (Elt F))), op.fresh = ∅ := by
  intro _ h; unfold opsAgg1 at h
  repeat (cases h with | head => rfl | tail _ h => ?_)
  exact nomatch h

/-- The second layer's product with `W2`. -/
abbrev mm2 : HloOp τ sig (Elt F) :=
  binary main_v63 main_arg4 main_v64 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))

/-- The second layer after its product: the same aggregation, bias and maximum with zero. -/
def opsAgg2 : List (HloOp τ sig (Elt F)) :=
  [ nullary main_c_14 (constantI S_ 32 0#32),
    unary main_c_14 main_v65 (broadcastInDim S1600000 ![] bcast_S_S1600000 : (⟨S_, .i32⟩ : BufTy).Contents (Elt F) → (⟨S1600000, .i32⟩ : BufTy).Contents (Elt F)),
    binary main_v1 main_v65 main_v66 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v67 (broadcastInDim S1600000 ![] bcast_S_S1600000 : (⟨S_, .i32⟩ : BufTy).Contents (Elt F) → (⟨S1600000, .i32⟩ : BufTy).Contents (Elt F)),
    binary main_v1 main_v67 main_v68 (addi : (⟨S1600000, .i32⟩ : BufTy).Contents (Elt F) → (⟨S1600000, .i32⟩ : BufTy).Contents (Elt F) → (⟨S1600000, .i32⟩ : BufTy).Contents (Elt F)),
    ternary main_v66 main_v68 main_v1 main_v69 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v69 main_v70 (broadcastInDim S1600000x1 ![0] bcast_S1600000_S1600000x1_0 : (⟨S1600000, .i32⟩ : BufTy).Contents (Elt F) → (⟨S1600000x1, .i32⟩ : BufTy).Contents (Elt F)),
    binary main_v20 main_v70 main_v71 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_16 (constantI S_ 32 0#32),
    unary main_c_16 main_v72 (broadcastInDim S1600000 ![] bcast_S_S1600000 : (⟨S_, .i32⟩ : BufTy).Contents (Elt F) → (⟨S1600000, .i32⟩ : BufTy).Contents (Elt F)),
    binary main_v3 main_v72 main_v73 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v74 (broadcastInDim S1600000 ![] bcast_S_S1600000 : (⟨S_, .i32⟩ : BufTy).Contents (Elt F) → (⟨S1600000, .i32⟩ : BufTy).Contents (Elt F)),
    binary main_v3 main_v74 main_v75 (addi : (⟨S1600000, .i32⟩ : BufTy).Contents (Elt F) → (⟨S1600000, .i32⟩ : BufTy).Contents (Elt F) → (⟨S1600000, .i32⟩ : BufTy).Contents (Elt F)),
    ternary main_v73 main_v75 main_v3 main_v76 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v76 main_v77 (broadcastInDim S1600000x1 ![0] bcast_S1600000_S1600000x1_0 : (⟨S1600000, .i32⟩ : BufTy).Contents (Elt F) → (⟨S1600000x1, .i32⟩ : BufTy).Contents (Elt F)),
    binary main_v20 main_v77 main_v78 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v71 main_v78 main_v79 (mulf : (⟨S1600000, .f32⟩ : BufTy).Contents (Elt F) → (⟨S1600000, .f32⟩ : BufTy).Contents (Elt F) → (⟨S1600000, .f32⟩ : BufTy).Contents (Elt F)),
    nullary main_c_18 (constantI S_ 32 0#32),
    unary main_c_18 main_v80 (broadcastInDim S1600000 ![] bcast_S_S1600000 : (⟨S_, .i32⟩ : BufTy).Contents (Elt F) → (⟨S1600000, .i32⟩ : BufTy).Contents (Elt F)),
    binary main_v1 main_v80 main_v81 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 100000#32),
    unary main_c_19 main_v82 (broadcastInDim S1600000 ![] bcast_S_S1600000 : (⟨S_, .i32⟩ : BufTy).Contents (Elt F) → (⟨S1600000, .i32⟩ : BufTy).Contents (Elt F)),
    binary main_v1 main_v82 main_v83 (addi : (⟨S1600000, .i32⟩ : BufTy).Contents (Elt F) → (⟨S1600000, .i32⟩ : BufTy).Contents (Elt F) → (⟨S1600000, .i32⟩ : BufTy).Contents (Elt F)),
    ternary main_v81 main_v83 main_v1 main_v84 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v84 main_v85 (broadcastInDim S1600000x1 ![0] bcast_S1600000_S1600000x1_0 : (⟨S1600000, .i32⟩ : BufTy).Contents (Elt F) → (⟨S1600000x1, .i32⟩ : BufTy).Contents (Elt F)),
    binary main_v64 main_v85 main_v86 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v79 main_v87 (broadcastInDim S1600000x1 ![0] bcast_S1600000_S1600000x1_0 : (⟨S1600000, .f32⟩ : BufTy).Contents (Elt F) → (⟨S1600000x1, .f32⟩ : BufTy).Contents (Elt F)),
    unary main_v87 main_v88 (broadcastInDim S1600000x64 ![0, 1] bcast_S1600000x1_S1600000x64_0_1 : (⟨S1600000x1, .f32⟩ : BufTy).Contents (Elt F) → (⟨S1600000x64, .f32⟩ : BufTy).Contents (Elt F)),
    binary main_v86 main_v88 main_v89 (mulf : (⟨S1600000x64, .f32⟩ : BufTy).Contents (Elt F) → (⟨S1600000x64, .f32⟩ : BufTy).Contents (Elt F) → (⟨S1600000x64, .f32⟩ : BufTy).Contents (Elt F)),
    nullary main_cst_20 (constant S_ .f32 0x00000000#32),
    unary main_cst_20 main_v90 (broadcastInDim S100000x64 ![] bcast_S_S100000x64 : (⟨S_, .f32⟩ : BufTy).Contents (Elt F) → (⟨S100000x64, .f32⟩ : BufTy).Contents (Elt F)),
    nullary main_c_21 (constantI S_ 32 0#32),
    unary main_c_21 main_v91 (broadcastInDim S1600000 ![] bcast_S_S1600000 : (⟨S_, .i32⟩ : BufTy).Contents (Elt F) → (⟨S1600000, .i32⟩ : BufTy).Contents (Elt F)),
    binary main_v3 main_v91 main_v92 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 100000#32),
    unary main_c_22 main_v93 (broadcastInDim S1600000 ![] bcast_S_S1600000 : (⟨S_, .i32⟩ : BufTy).Contents (Elt F) → (⟨S1600000, .i32⟩ : BufTy).Contents (Elt F)),
    binary main_v3 main_v93 main_v94 (addi : (⟨S1600000, .i32⟩ : BufTy).Contents (Elt F) → (⟨S1600000, .i32⟩ : BufTy).Contents (Elt F) → (⟨S1600000, .i32⟩ : BufTy).Contents (Elt F)),
    ternary main_v92 main_v94 main_v3 main_v95 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v95 main_v96 (broadcastInDim S1600000x1 ![0] bcast_S1600000_S1600000x1_0 : (⟨S1600000, .i32⟩ : BufTy).Contents (Elt F) → (⟨S1600000x1, .i32⟩ : BufTy).Contents (Elt F)),
    ternary main_v90 main_v96 main_v89 main_v97 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v20 main_v20 main_v98 (mulf : (⟨S100000, .f32⟩ : BufTy).Contents (Elt F) → (⟨S100000, .f32⟩ : BufTy).Contents (Elt F) → (⟨S100000, .f32⟩ : BufTy).Contents (Elt F)),
    unary main_v98 main_v99 (broadcastInDim S100000x1 ![0] bcast_S100000_S100000x1_0 : (⟨S100000, .f32⟩ : BufTy).Contents (Elt F) → (⟨S100000x1, .f32⟩ : BufTy).Contents (Elt F)),
    unary main_v99 main_v100 (broadcastInDim S100000x64 ![0, 1] bcast_S100000x1_S100000x64_0_1 : (⟨S100000x1, .f32⟩ : BufTy).Contents (Elt F) → (⟨S100000x64, .f32⟩ : BufTy).Contents (Elt F)),
    binary main_v64 main_v100 main_v101 (mulf : (⟨S100000x64, .f32⟩ : BufTy).Contents (Elt F) → (⟨S100000x64, .f32⟩ : BufTy).Contents (Elt F) → (⟨S100000x64, .f32⟩ : BufTy).Contents (Elt F)),
    binary main_v97 main_v101 main_v102 (addf : (⟨S100000x64, .f32⟩ : BufTy).Contents (Elt F) → (⟨S100000x64, .f32⟩ : BufTy).Contents (Elt F) → (⟨S100000x64, .f32⟩ : BufTy).Contents (Elt F)),
    unary main_arg5 main_v103 (broadcastInDim S1x64 ![1] bcast_S64_S1x64_1 : (⟨S64, .f32⟩ : BufTy).Contents (Elt F) → (⟨S1x64, .f32⟩ : BufTy).Contents (Elt F)),
    unary main_v103 main_v104 (broadcastInDim S100000x64 ![0, 1] bcast_S1x64_S100000x64_0_1 : (⟨S1x64, .f32⟩ : BufTy).Contents (Elt F) → (⟨S100000x64, .f32⟩ : BufTy).Contents (Elt F)),
    binary main_v102 main_v104 main_v105 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v105) (TRef.of (T := ⟨S100000x64, .f32⟩) main_call2_v0) (TRef.of (T := ⟨S100000x64, .f32⟩) main_v106) maximumf ]

/-- Each of these operations touches TensorCore buffers only. -/
theorem opsAgg2_sub : (opsAgg2 : List (HloOp τ sig (Elt F))).Forall fun op => op.bufs ⊆ tcRefs τ sig := by
  unfold opsAgg2
  simp only [List.Forall, nullary_bufs_sub, unary_bufs_sub, binary_bufs_sub, ternary_bufs_sub, reshape_bufs_sub, and_self]

/-- None of them allocates a buffer. -/
theorem opsAgg2_fresh : ∀ op ∈ (opsAgg2 : List (HloOp τ sig (Elt F))), op.fresh = ∅ := by
  intro _ h; unfold opsAgg2 at h
  repeat (cases h with | head => rfl | tail _ h => ?_)
  exact nomatch h

/-- The third layer's product with `W3`. -/
abbrev mm3 : HloOp τ sig (Elt F) :=
  binary main_v106 main_arg6 main_v107 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F))

/-- The third layer after its product: the same aggregation over one column, and the bias. -/
def opsAgg3 : List (HloOp τ sig (Elt F)) :=
  [ nullary main_c_23 (constantI S_ 32 0#32),
    unary main_c_23 main_v108 (broadcastInDim S1600000 ![] bcast_S_S1600000 : (⟨S_, .i32⟩ : BufTy).Contents (Elt F) → (⟨S1600000, .i32⟩ : BufTy).Contents (Elt F)),
    binary main_v1 main_v108 main_v109 (cmpi .slt : (⟨S1600000, .i32⟩ : BufTy).Contents (Elt F) → (⟨S1600000, .i32⟩ : BufTy).Contents (Elt F) → (⟨S1600000, .i1⟩ : BufTy).Contents (Elt F)),
    nullary main_c_24 (constantI S_ 32 100000#32),
    unary main_c_24 main_v110 (broadcastInDim S1600000 ![] bcast_S_S1600000 : (⟨S_, .i32⟩ : BufTy).Contents (Elt F) → (⟨S1600000, .i32⟩ : BufTy).Contents (Elt F)),
    binary main_v1 main_v110 main_v111 (addi : (⟨S1600000, .i32⟩ : BufTy).Contents (Elt F) → (⟨S1600000, .i32⟩ : BufTy).Contents (Elt F) → (⟨S1600000, .i32⟩ : BufTy).Contents (Elt F)),
    ternary main_v109 main_v111 main_v1 main_v112 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v112 main_v113 (broadcastInDim S1600000x1 ![0] bcast_S1600000_S1600000x1_0 : (⟨S1600000, .i32⟩ : BufTy).Contents (Elt F) → (⟨S1600000x1, .i32⟩ : BufTy).Contents (Elt F)),
    binary main_v20 main_v113 main_v114 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_25 (constantI S_ 32 0#32),
    unary main_c_25 main_v115 (broadcastInDim S1600000 ![] bcast_S_S1600000 : (⟨S_, .i32⟩ : BufTy).Contents (Elt F) → (⟨S1600000, .i32⟩ : BufTy).Contents (Elt F)),
    binary main_v3 main_v115 main_v116 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 100000#32),
    unary main_c_26 main_v117 (broadcastInDim S1600000 ![] bcast_S_S1600000 : (⟨S_, .i32⟩ : BufTy).Contents (Elt F) → (⟨S1600000, .i32⟩ : BufTy).Contents (Elt F)),
    binary main_v3 main_v117 main_v118 (addi : (⟨S1600000, .i32⟩ : BufTy).Contents (Elt F) → (⟨S1600000, .i32⟩ : BufTy).Contents (Elt F) → (⟨S1600000, .i32⟩ : BufTy).Contents (Elt F)),
    ternary main_v116 main_v118 main_v3 main_v119 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v119 main_v120 (broadcastInDim S1600000x1 ![0] bcast_S1600000_S1600000x1_0 : (⟨S1600000, .i32⟩ : BufTy).Contents (Elt F) → (⟨S1600000x1, .i32⟩ : BufTy).Contents (Elt F)),
    binary main_v20 main_v120 main_v121 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v114 main_v121 main_v122 (mulf : (⟨S1600000, .f32⟩ : BufTy).Contents (Elt F) → (⟨S1600000, .f32⟩ : BufTy).Contents (Elt F) → (⟨S1600000, .f32⟩ : BufTy).Contents (Elt F)),
    nullary main_c_27 (constantI S_ 32 0#32),
    unary main_c_27 main_v123 (broadcastInDim S1600000 ![] bcast_S_S1600000 : (⟨S_, .i32⟩ : BufTy).Contents (Elt F) → (⟨S1600000, .i32⟩ : BufTy).Contents (Elt F)),
    binary main_v1 main_v123 main_v124 (cmpi .slt : (⟨S1600000, .i32⟩ : BufTy).Contents (Elt F) → (⟨S1600000, .i32⟩ : BufTy).Contents (Elt F) → (⟨S1600000, .i1⟩ : BufTy).Contents (Elt F)),
    nullary main_c_28 (constantI S_ 32 100000#32),
    unary main_c_28 main_v125 (broadcastInDim S1600000 ![] bcast_S_S1600000 : (⟨S_, .i32⟩ : BufTy).Contents (Elt F) → (⟨S1600000, .i32⟩ : BufTy).Contents (Elt F)),
    binary main_v1 main_v125 main_v126 (addi : (⟨S1600000, .i32⟩ : BufTy).Contents (Elt F) → (⟨S1600000, .i32⟩ : BufTy).Contents (Elt F) → (⟨S1600000, .i32⟩ : BufTy).Contents (Elt F)),
    ternary main_v124 main_v126 main_v1 main_v127 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v127 main_v128 (broadcastInDim S1600000x1 ![0] bcast_S1600000_S1600000x1_0 : (⟨S1600000, .i32⟩ : BufTy).Contents (Elt F) → (⟨S1600000x1, .i32⟩ : BufTy).Contents (Elt F)),
    binary main_v107 main_v128 main_v129 ((fun x i => Host.gather gather_S100000x1_S1600000x1_S1600000x1_1_0_n_n_0_1_11 x i) : (⟨S100000x1, .f32⟩ : BufTy).Contents (Elt F) → (⟨S1600000x1, .i32⟩ : BufTy).Contents (Elt F) → (⟨S1600000x1, .f32⟩ : BufTy).Contents (Elt F)),
    unary main_v122 main_v130 (broadcastInDim S1600000x1 ![0] bcast_S1600000_S1600000x1_0 : (⟨S1600000, .f32⟩ : BufTy).Contents (Elt F) → (⟨S1600000x1, .f32⟩ : BufTy).Contents (Elt F)),
    binary main_v129 main_v130 main_v131 (mulf : (⟨S1600000x1, .f32⟩ : BufTy).Contents (Elt F) → (⟨S1600000x1, .f32⟩ : BufTy).Contents (Elt F) → (⟨S1600000x1, .f32⟩ : BufTy).Contents (Elt F)),
    nullary main_cst_29 (constant S_ .f32 0x00000000#32),
    unary main_cst_29 main_v132 (broadcastInDim S100000x1 ![] bcast_S_S100000x1 : (⟨S_, .f32⟩ : BufTy).Contents (Elt F) → (⟨S100000x1, .f32⟩ : BufTy).Contents (Elt F)),
    nullary main_c_30 (constantI S_ 32 0#32),
    unary main_c_30 main_v133 (broadcastInDim S1600000 ![] bcast_S_S1600000 : (⟨S_, .i32⟩ : BufTy).Contents (Elt F) → (⟨S1600000, .i32⟩ : BufTy).Contents (Elt F)),
    binary main_v3 main_v133 main_v134 (cmpi .slt : (⟨S1600000, .i32⟩ : BufTy).Contents (Elt F) → (⟨S1600000, .i32⟩ : BufTy).Contents (Elt F) → (⟨S1600000, .i1⟩ : BufTy).Contents (Elt F)),
    nullary main_c_31 (constantI S_ 32 100000#32),
    unary main_c_31 main_v135 (broadcastInDim S1600000 ![] bcast_S_S1600000 : (⟨S_, .i32⟩ : BufTy).Contents (Elt F) → (⟨S1600000, .i32⟩ : BufTy).Contents (Elt F)),
    binary main_v3 main_v135 main_v136 (addi : (⟨S1600000, .i32⟩ : BufTy).Contents (Elt F) → (⟨S1600000, .i32⟩ : BufTy).Contents (Elt F) → (⟨S1600000, .i32⟩ : BufTy).Contents (Elt F)),
    ternary main_v134 main_v136 main_v3 main_v137 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v137 main_v138 (broadcastInDim S1600000x1 ![0] bcast_S1600000_S1600000x1_0 : (⟨S1600000, .i32⟩ : BufTy).Contents (Elt F) → (⟨S1600000x1, .i32⟩ : BufTy).Contents (Elt F)),
    ternary main_v132 main_v138 main_v131 main_v139 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    binary main_v20 main_v20 main_v140 (mulf : (⟨S100000, .f32⟩ : BufTy).Contents (Elt F) → (⟨S100000, .f32⟩ : BufTy).Contents (Elt F) → (⟨S100000, .f32⟩ : BufTy).Contents (Elt F)),
    unary main_v140 main_v141 (broadcastInDim S100000x1 ![0] bcast_S100000_S100000x1_0 : (⟨S100000, .f32⟩ : BufTy).Contents (Elt F) → (⟨S100000x1, .f32⟩ : BufTy).Contents (Elt F)),
    binary main_v107 main_v141 main_v142 (mulf : (⟨S100000x1, .f32⟩ : BufTy).Contents (Elt F) → (⟨S100000x1, .f32⟩ : BufTy).Contents (Elt F) → (⟨S100000x1, .f32⟩ : BufTy).Contents (Elt F)),
    binary main_v139 main_v142 main_v143 (addf : (⟨S100000x1, .f32⟩ : BufTy).Contents (Elt F) → (⟨S100000x1, .f32⟩ : BufTy).Contents (Elt F) → (⟨S100000x1, .f32⟩ : BufTy).Contents (Elt F)),
    unary main_arg7 main_v144 (broadcastInDim S1x1 ![1] bcast_S1_S1x1_1 : (⟨S1, .f32⟩ : BufTy).Contents (Elt F) → (⟨S1x1, .f32⟩ : BufTy).Contents (Elt F)),
    unary main_v144 main_v145 (broadcastInDim S100000x1 ![0, 1] bcast_S1x1_S100000x1_0_1 : (⟨S1x1, .f32⟩ : BufTy).Contents (Elt F) → (⟨S100000x1, .f32⟩ : BufTy).Contents (Elt F)),
    binary main_v143 main_v145 main_v146 (addf : (⟨S100000x1, .f32⟩ : BufTy).Contents (Elt F) → (⟨S100000x1, .f32⟩ : BufTy).Contents (Elt F) → (⟨S100000x1, .f32⟩ : BufTy).Contents (Elt F)) ]

/-- Each of these operations touches TensorCore buffers only. -/
theorem opsAgg3_sub : (opsAgg3 : List (HloOp τ sig (Elt F))).Forall fun op => op.bufs ⊆ tcRefs τ sig := by
  unfold opsAgg3
  simp only [List.Forall, nullary_bufs_sub, unary_bufs_sub, binary_bufs_sub, ternary_bufs_sub, reshape_bufs_sub, and_self]

/-- None of them allocates a buffer. -/
theorem opsAgg3_fresh : ∀ op ∈ (opsAgg3 : List (HloOp τ sig (Elt F))), op.fresh = ∅ := by
  intro _ h; unfold opsAgg3 at h
  repeat (cases h with | head => rfl | tail _ h => ?_)
  exact nomatch h

/-- The whole line: the seven pieces in order. -/
abbrev ops : List (HloOp τ sig (Elt F)) :=
  opsNorm ++ (mm1 :: (opsAgg1 ++ (mm2 :: (opsAgg2 ++ (mm3 :: opsAgg3)))))

set_option maxRecDepth 8192 in
set_option maxHeartbeats 4000000 in
/-- The printed program is that line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- An operation of the line is in one of the seven pieces. -/
theorem mem_ops {op : HloOp τ sig (Elt F)} (h : op ∈ (ops : List (HloOp τ sig (Elt F)))) :
    op ∈ (opsNorm : List (HloOp τ sig (Elt F))) ∨ op = mm1 ∨ op ∈ (opsAgg1 : List (HloOp τ sig (Elt F))) ∨ op = mm2
      ∨ op ∈ (opsAgg2 : List (HloOp τ sig (Elt F))) ∨ op = mm3 ∨ op ∈ (opsAgg3 : List (HloOp τ sig (Elt F))) := by
  rcases List.mem_append.mp h with h | h
  · exact .inl h
  rcases List.mem_cons.mp h with h | h
  · exact .inr (.inl h)
  rcases List.mem_append.mp h with h | h
  · exact .inr (.inr (.inl h))
  rcases List.mem_cons.mp h with h | h
  · exact .inr (.inr (.inr (.inl h)))
  rcases List.mem_append.mp h with h | h
  · exact .inr (.inr (.inr (.inr (.inl h))))
  rcases List.mem_cons.mp h with h | h
  · exact .inr (.inr (.inr (.inr (.inr (.inl h)))))
  · exact .inr (.inr (.inr (.inr (.inr (.inr h)))))

theorem ops_sub : (ops : List (HloOp τ sig (Elt F))).Forall fun op => op.bufs ⊆ tcRefs τ sig := by
  refine List.forall_iff_forall_mem.mpr fun op h => ?_
  rcases mem_ops h with h | rfl | h | rfl | h | rfl | h
  · exact List.forall_iff_forall_mem.mp opsNorm_sub op h
  · exact binary_bufs_sub ..
  · exact List.forall_iff_forall_mem.mp opsAgg1_sub op h
  · exact binary_bufs_sub ..
  · exact List.forall_iff_forall_mem.mp opsAgg2_sub op h
  · exact binary_bufs_sub ..
  · exact List.forall_iff_forall_mem.mp opsAgg3_sub op h

theorem ops_fresh : ∀ op ∈ (ops : List (HloOp τ sig (Elt F))), op.fresh = ∅ := by
  intro op h
  rcases mem_ops h with h | rfl | h | rfl | h | rfl | h
  · exact opsNorm_fresh op h
  · rfl
  · exact opsAgg1_fresh op h
  · rfl
  · exact opsAgg2_fresh op h
  · rfl
  · exact opsAgg3_fresh op h

/-- Running two lines one after the other composes their results. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The buffers after the whole line, as the seven pieces' results composed. -/
theorem after_ops (V : Valuation τ sig (Elt F)) :
    after ops V = after opsAgg3 (mm3.result (after opsAgg2 (mm2.result (after opsAgg1 (mm1.result (after opsNorm V)))))) := by
  show after (opsNorm ++ (mm1 :: (opsAgg1 ++ (mm2 :: (opsAgg2 ++ (mm3 :: opsAgg3)))))) V = _
  rw [after_append opsNorm, after_cons mm1, after_append opsAgg1, after_cons mm2, after_append opsAgg2, after_cons mm3]

/-- On every device, from any memory with zero counters: every weakly fair execution of the reference terminates with
    every buffer at the line's results composed over its launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.HostRun

end
-- ==== Proof.RefKept.lean ====
/-
  The reference program leaves its arguments alone.

  None of its operations writes an argument array, so after the whole line each argument's buffer holds what it held
  at launch.
-/
import proofs.«162252_j30064771072295_1_alg».proof.Proof.RefRun

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

set_option maxHeartbeats 16000000 in
theorem kept_arg0 : after ops V (Proc.devRef .tc main_arg0) = V (Proc.devRef .tc main_arg0) := by
  rw [after_ops]
  unfold opsNorm opsAgg1 opsAgg2 opsAgg3
  after_results_simp

set_option maxHeartbeats 16000000 in
theorem kept_arg1 : after ops V (Proc.devRef .tc main_arg1) = V (Proc.devRef .tc main_arg1) := by
  rw [after_ops]
  unfold opsNorm opsAgg1 opsAgg2 opsAgg3
  after_results_simp

set_option maxHeartbeats 16000000 in
theorem kept_arg2 : after ops V (Proc.devRef .tc main_arg2) = V (Proc.devRef .tc main_arg2) := by
  rw [after_ops]
  unfold opsNorm opsAgg1 opsAgg2 opsAgg3
  after_results_simp

set_option maxHeartbeats 16000000 in
theorem kept_arg3 : after ops V (Proc.devRef .tc main_arg3) = V (Proc.devRef .tc main_arg3) := by
  rw [after_ops]
  unfold opsNorm opsAgg1 opsAgg2 opsAgg3
  after_results_simp

set_option maxHeartbeats 16000000 in
theorem kept_arg4 : after ops V (Proc.devRef .tc main_arg4) = V (Proc.devRef .tc main_arg4) := by
  rw [after_ops]
  unfold opsNorm opsAgg1 opsAgg2 opsAgg3
  after_results_simp

set_option maxHeartbeats 16000000 in
theorem kept_arg5 : after ops V (Proc.devRef .tc main_arg5) = V (Proc.devRef .tc main_arg5) := by
  rw [after_ops]
  unfold opsNorm opsAgg1 opsAgg2 opsAgg3
  after_results_simp

set_option maxHeartbeats 16000000 in
theorem kept_arg6 : after ops V (Proc.devRef .tc main_arg6) = V (Proc.devRef .tc main_arg6) := by
  rw [after_ops]
  unfold opsNorm opsAgg1 opsAgg2 opsAgg3
  after_results_simp

set_option maxHeartbeats 16000000 in
theorem kept_arg7 : after ops V (Proc.devRef .tc main_arg7) = V (Proc.devRef .tc main_arg7) := by
  rw [after_ops]
  unfold opsNorm opsAgg1 opsAgg2 opsAgg3
  after_results_simp

end Cert.ReferenceIdeal.HostRun

end
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.LibPlainProduct.lean ====
/-
  The matrix product as ONE function of its two operands, and the two spellings a program gives it.

  `prod l r` is the `M × N` array whose entry `(p, q)` is `∑ k, l (p, k) · r (k, q)`, a sum over the shared axis of
  extent `K`, taken over the extended reals.  A `tpu.matmul` into the zero accumulator and the host's `dot_general`,
  each carrying the dimension numbers of a plain product (`IsPlain`), are both `prod` of their operands — whatever the
  operands' float formats, and for the host whatever its schedule key.  So a kernel that multiplies row blocks and a
  reference that multiplies the whole array meet at `prod`: row `p` of the product depends on row `p` of the left
  operand only.
-/
import proofs.«162252_j30064771072295_1_alg».proof.Proof.LibMatmulPlain

noncomputable section

namespace Idealize.ShloMosaic.MatmulPlain

open Idealize.ShloMosaic Idealize.ShloMosaic.ValueIdx
open scoped BigOperators

variable {M N K : Nat} {D : DotDims ⟨2, ![M, K]⟩ ⟨2, ![K, N]⟩ ⟨2, ![M, N]⟩}

/-- The product of an `M × K` and a `K × N` array: entry `j` is the sum over the shared axis of the products of row
    `j 0` of the left operand with column `j 1` of the right one. -/
def prod {φ₁ φ₂ : FTy} (l : FVec Ideal ⟨2, ![M, K]⟩ φ₁) (r : FVec Ideal ⟨2, ![K, N]⟩ φ₂) : FVec Ideal ⟨2, ![M, N]⟩ .f32 :=
  fun j => ∑ k : Fin K, l (ix2 (j 0) k) * r (ix2 k (j 1))

theorem prod_apply {φ₁ φ₂ : FTy} (l : FVec Ideal ⟨2, ![M, K]⟩ φ₁) (r : FVec Ideal ⟨2, ![K, N]⟩ φ₂) (p : Fin M) (q : Fin N) :
    prod l r (ix2 p q) = ∑ k : Fin K, l (ix2 p k) * r (ix2 k q) := rfl

/-- The host's `dot_general` with a plain product's dimension numbers, read at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply, ← Equiv.sum_comp h.contrEquiv.symm]
  refine Finset.sum_congr rfl fun k _ => ?_
  rw [h.lhsIdx_eq, h.rhsIdx_eq]

/-- A `tpu.matmul` into the zero accumulator is the product. -/
theorem matmul_zero_eq_prod (h : IsPlain D) {φ₁ φ₂ : FTy} (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = prod l r := by
  funext j
  obtain ⟨p, q, rfl⟩ : ∃ (p : Fin M) (q : Fin N), j = ix2 p q := ⟨j 0, j 1, eq_ix2 j⟩
  exact matmul_zero_apply h prec l r p q

/-- The host's `dot_general` is the product. -/
theorem dotGeneral_eq_prod (h : IsPlain D) {φ₁ φ₂ : FTy} (prec : Option ContractPrecision) (sched : HostSchedule)
    (l : FVec Ideal ⟨2, ![M, K]⟩ φ₁) (r : FVec Ideal ⟨2, ![K, N]⟩ φ₂) :
    FloatOps.dotGeneral D prec sched l r = prod l r := by
  funext j
  obtain ⟨p, q, rfl⟩ : ∃ (p : Fin M) (q : Fin N), j = ix2 p q := ⟨j 0, j 1, eq_ix2 j⟩
  exact dotGeneral_apply h prec sched l r p q

/-- Row `p` of the product is the product of row `p`: if two left operands agree on a row (here: a row of a block and
    the row of the whole array it was cut from), the products agree on that row. -/
theorem prod_row_congr {M' : Nat} {φ₁ φ₁' φ₂ : FTy} (l : FVec Ideal ⟨2, ![M, K]⟩ φ₁) (l' : FVec Ideal ⟨2, ![M', K]⟩ φ₁')
    (r : FVec Ideal ⟨2, ![K, N]⟩ φ₂) (p : Fin M) (p' : Fin M') (q : Fin N)
    (hrow : ∀ k : Fin K, l (ix2 p k) = l' (ix2 p' k)) :
    prod l r (ix2 p q) = prod l' r (ix2 p' q) := by
  rw [prod_apply, prod_apply]
  exact Finset.sum_congr rfl fun k _ => by rw [hrow k]

end Idealize.ShloMosaic.MatmulPlain

end
-- ==== Proof.LibProdEntries.lean ====
/-
  An entry of a matrix product depends on one row of the left operand and one column of the right one.

  If row `j 0` of `l` is row `j' 0` of `l'` and column `j 1` of `r` is column `j' 1` of `r'`, then entry `j` of
  `l · r` is entry `j'` of `l' · r'`: the two sums over the shared axis agree term by term.  This is how a product
  taken on a block of rows is read as a block of the product of the whole arrays.
-/
import proofs.«162252_j30064771072295_1_alg».proof.Proof.LibPlainProduct

noncomputable section

namespace Idealize.ShloMosaic.MatmulPlain

open Idealize.ShloMosaic Idealize.ShloMosaic.ValueIdx
open scoped BigOperators

/-- Entry `j` of `l · r` is entry `j'` of `l' · r'` when row `j 0` of `l` is row `j' 0` of `l'` and column `j 1` of `r` is
    column `j' 1` of `r'` (the operands may have different numbers of rows and of columns, and any float formats). -/
theorem prod_entry_congr {M M' K N N' : Nat} {φ₁ φ₁' φ₂ φ₂' : FTy}
    (l : FVec Ideal ⟨2, ![M, K]⟩ φ₁) (r : FVec Ideal ⟨2, ![K, N]⟩ φ₂)
    (l' : FVec Ideal ⟨2, ![M', K]⟩ φ₁') (r' : FVec Ideal ⟨2, ![K, N']⟩ φ₂')
    (j : (⟨2, ![M, N]⟩ : Shape).Idx) (j' : (⟨2, ![M', N']⟩ : Shape).Idx)
    (hl : ∀ k : Fin K, l (ix2 (j 0) k) = l' (ix2 (j' 0) k))
    (hr : ∀ k : Fin K, r (ix2 k (j 1)) = r' (ix2 k (j' 1))) :
    prod l r j = prod l' r' j' := by
  show ∑ k : Fin K, l (ix2 (j 0) k) * r (ix2 k (j 1)) = ∑ k : Fin K, l' (ix2 (j' 0) k) * r' (ix2 k (j' 1))
  exact Finset.sum_congr rfl fun k _ => by rw [hl k, hr k]

end Idealize.ShloMosaic.MatmulPlain

end
-- ==== Proof.Linear0.lean ====
/-
  The first linear layer's pallas_call, read as a value over the extended reals.

  The call walks the 100000 rows of its left operand in ten blocks of 10000 rows.  At each grid point the body
  rounds the row block and the whole 128 x 64 weight to a narrower float format (the identity over the extended
  reals), multiplies them into a zero accumulator and stores the 10000 x 64 result, which the pipeline writes back
  as the same row block of the output array.  An entry of a matrix product depends on one row of the left operand
  only, so the block of the product of the blocks is the block of the product of the whole arrays; the ten blocks
  tile the output, so after the call the output array IS the product of the two input arrays as the call found
  them — whatever those were.
-/
import proofs.«162252_j30064771072295_1_alg».proof.Proof.Gen.KernelIdeal.Frame
import proofs.«162252_j30064771072295_1_alg».proof.Proof.LibProdEntries
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.MatmulPlain Idealize.ShloMosaic.ValueIdx

namespace Cert.KernelIdeal.Linear0

open Cert.KernelIdeal Cert.KernelIdeal.Gen

-- the buffer contents the call is entered from: any
variable (V : (c : Dev nD) → (b : Ref sig .tc) → Buf (Elt Ideal) ((c : Thread nD τ).loc b))

theorem hz : (![0, 0] : Fin 2 → Nat) = fun _ => 0 := funext fun a => by fin_cases a <;> rfl

/-- The body's matrix unit carries the dimension numbers of a plain product `l @ r`. -/
theorem plain : IsPlain (M := 10000) (K := 128) (N := 64) dot_S10000x128_S128x64_S10000x64_1_0_0_1_n_n :=
  ⟨rfl, rfl, rfl, rfl, rfl, rfl⟩

/-- What the body stores is the product of the two blocks it loads: the rounding of the operands
    change nothing over the extended reals, and the accumulator is zero. -/
theorem body_eq (x : Vec Ideal S10000x128 .f32) (w : Vec Ideal S128x64 .f32) :
    k0_pay1 (F := Ideal) x w = prod (M := 10000) (K := 128) (N := 64) (φ₁ := .f32) (φ₂ := .f32) x w := by
  unfold k0_pay1
  exact matmul_zero_eq_prod plain none _ _

/-- The printed index maps at each of the ten grid points: the left operand's and the output's row blocks move together,
    the weight's block and every column block stay at 0. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every one of the ten row blocks of the output is some grid point's. -/
theorem idx_onto : ∀ q : Fin 10, ∃ t : Fin cfg0.N, win0_2.index t = ![q.val, 0] :=
  (by decide +kernel : ∀ q : Fin 10, ∃ t : Fin grid0.N, win0_2.index t = ![q.val, 0])

/-- Row `p` of the left operand's block at point `t` is row `10000 · (block index) + p` of the array. -/
theorem lhs_block (c : Dev nD) (t : Fin cfg0.N) (p : Fin 10000) (k : Fin 128) (P : Fin 100000)
    (hP : P.val = win0_2.index t (0 : Fin 2) * 10000 + p.val) :
    (iblk0 V c 0 t : Vec Ideal S10000x128 .f32) (ix2 p k) = (V c main_arg0 : S100000x128.Idx → EReal) (ix2 P k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 10000 + 1 * p.val = P.val; rw [e0, hP]; omega
  | ⟨1, _⟩ => show win0_0.index t (1 : Fin 2) * 128 + 1 * k.val = k.val; rw [e1]; omega

/-- The weight's block at every point is the whole weight. -/
theorem rhs_block (c : Dev nD) (t : Fin cfg0.N) (k : Fin 128) (q : Fin 64) :
    (iblk0 V c 1 t : Vec Ideal S128x64 .f32) (ix2 k q) = (V c main_arg2 : S128x64.Idx → EReal) (ix2 k q) := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- What grid point `t` writes back is block `t` of the product of the two input arrays. -/
theorem flushed_eq (c : Dev nD) (t : Fin cfg0.N) :
    (dat0 V c).flushed 2 t = ((cfg0.win 2).blk t).view.read (Elt Ideal)
      (prod (M := 100000) (K := 128) (N := 64) (φ₁ := .f32) (φ₂ := .f32) (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  rw [body_eq]
  obtain ⟨-, -, -, -, e4⟩ := idx_facts t
  funext j
  show prod (M := 10000) (K := 128) (N := 64) (φ₁ := .f32) (φ₂ := .f32) (iblk0 V c 0 t) (iblk0 V c 1 t) j
    = prod (M := 100000) (K := 128) (N := 64) (φ₁ := .f32) (φ₂ := .f32) (V c main_arg0) (V c main_arg2) (((cfg0.win 2).blk t).view.emb j)
  refine prod_entry_congr _ _ _ _ _ _ (fun k => ?_) (fun k => ?_)
  · refine lhs_block V c t _ k _ ?_
    show win0_2.index t (0 : Fin 2) * 10000 + 1 * (j 0).val = win0_2.index t (0 : Fin 2) * 10000 + (j 0).val
    omega
  · refine (rhs_block V c t k _).trans (congrArg (V c main_arg2 : S128x64.Idx → EReal) ?_)
    funext a
    apply Fin.ext
    match a with
    | ⟨0, _⟩ => rfl
    | ⟨1, _⟩ => show (j 1).val = win0_2.index t (1 : Fin 2) * 64 + 1 * (j 1).val; rw [e4]; omega

/-- An index of the output array lies in point `t`'s block iff each coordinate lies in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v21).slice (win0_2.rect t)).set ↔ _
  rw [View.set_slice_whole, Rect.mem_set_unit]
  exact Iff.rfl

/-- The ten row blocks cover the output array: row `r` lies in block `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the call its output array is the product of its two input arrays as the call found them. -/
theorem product (c : Dev nD) :
    (dat0 V c).arrAt 2 cfg0.N
      = prod (M := 100000) (K := 128) (N := 64) (φ₁ := .f32) (φ₂ := .f32) (V c main_arg0) (V c main_arg2) :=
  (dat0 V c).arrAt_eq_of_cover 2 _ (fun t _ => flushed_eq V c t) cover

end Cert.KernelIdeal.Linear0

end
-- ==== Proof.Linear1.lean ====
/-
  The second linear layer's pallas_call, read as a value over the extended reals.

  The call walks the 100000 rows of its left operand in ten blocks of 10000 rows.  At each grid point the body
  rounds the row block and the whole 64 x 64 weight to a narrower float format (the identity over the extended
  reals), multiplies them into a zero accumulator and stores the 10000 x 64 result, which the pipeline writes back
  as the same row block of the output array.  An entry of a matrix product depends on one row of the left operand
  only, so the block of the product of the blocks is the block of the product of the whole arrays; the ten blocks
  tile the output, so after the call the output array IS the product of the two input arrays as the call found
  them — whatever those were.
-/
import proofs.«162252_j30064771072295_1_alg».proof.Proof.Gen.KernelIdeal.Frame
import proofs.«162252_j30064771072295_1_alg».proof.Proof.LibProdEntries
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.MatmulPlain Idealize.ShloMosaic.ValueIdx

namespace Cert.KernelIdeal.Linear1

open Cert.KernelIdeal Cert.KernelIdeal.Gen

-- the buffer contents the call is entered from: any
variable (V : (c : Dev nD) → (b : Ref sig .tc) → Buf (Elt Ideal) ((c : Thread nD τ).loc b))

theorem hz : (![0, 0] : Fin 2 → Nat) = fun _ => 0 := funext fun a => by fin_cases a <;> rfl

/-- The body's matrix unit carries the dimension numbers of a plain product `l @ r`. -/
theorem plain : IsPlain (M := 10000) (K := 64) (N := 64) dot_S10000x64_S64x64_S10000x64_1_0_0_1_n_n :=
  ⟨rfl, rfl, rfl, rfl, rfl, rfl⟩

/-- What the body stores is the product of the two blocks it loads: the rounding of the operands and the shape cast to the same shape
    change nothing over the extended reals, and the accumulator is zero. -/
theorem body_eq (x : Vec Ideal S10000x64 .f32) (w : Vec Ideal S64x64 .f32) :
    k1_pay1 (F := Ideal) x w = prod (M := 10000) (K := 64) (N := 64) (φ₁ := .f32) (φ₂ := .f32) x w := by
  unfold k1_pay1
  simp only [shapeCast_self]
  exact matmul_zero_eq_prod plain none _ _

/-- The printed index maps at each of the ten grid points: the left operand's and the output's row blocks move together,
    the weight's block and every column block stay at 0. -/
theorem idx_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 :=
  (by decide +kernel : ∀ t : Fin grid1.N, _)

/-- Every one of the ten row blocks of the output is some grid point's. -/
theorem idx_onto : ∀ q : Fin 10, ∃ t : Fin cfg1.N, win1_2.index t = ![q.val, 0] :=
  (by decide +kernel : ∀ q : Fin 10, ∃ t : Fin grid1.N, win1_2.index t = ![q.val, 0])

/-- Row `p` of the left operand's block at point `t` is row `10000 · (block index) + p` of the array. -/
theorem lhs_block (c : Dev nD) (t : Fin cfg1.N) (p : Fin 10000) (k : Fin 64) (P : Fin 100000)
    (hP : P.val = win1_2.index t (0 : Fin 2) * 10000 + p.val) :
    (iblk1 V c 0 t : Vec Ideal S10000x64 .f32) (ix2 p k) = (V c main_v63 : S100000x64.Idx → EReal) (ix2 P k) := by
  obtain ⟨e0, e1, -⟩ := idx_facts t
  unfold iblk1
  rw [View.read_apply]
  show V c main_v63 _ = V c main_v63 _
  congr 1
  funext a
  apply Fin.ext
  match a with
  | ⟨0, _⟩ => show win1_0.index t (0 : Fin 2) * 10000 + 1 * p.val = P.val; rw [e0, hP]; omega
  | ⟨1, _⟩ => show win1_0.index t (1 : Fin 2) * 64 + 1 * k.val = k.val; rw [e1]; omega

/-- The weight's block at every point is the whole weight. -/
theorem rhs_block (c : Dev nD) (t : Fin cfg1.N) (k : Fin 64) (q : Fin 64) :
    (iblk1 V c 1 t : Vec Ideal S64x64 .f32) (ix2 k q) = (V c main_arg4 : S64x64.Idx → EReal) (ix2 k q) := by
  obtain ⟨-, -, e2, e3, -⟩ := idx_facts t
  unfold iblk1
  rw [View.read_apply]
  show V c main_arg4 _ = V c main_arg4 _
  congr 1
  funext a
  apply Fin.ext
  match a with
  | ⟨0, _⟩ => show win1_1.index t (0 : Fin 2) * 64 + 1 * k.val = k.val; rw [e2]; omega
  | ⟨1, _⟩ => show win1_1.index t (1 : Fin 2) * 64 + 1 * q.val = q.val; rw [e3]; omega

/-- What grid point `t` writes back is block `t` of the product of the two input arrays. -/
theorem flushed_eq (c : Dev nD) (t : Fin cfg1.N) :
    (dat1 V c).flushed 2 t = ((cfg1.win 2).blk t).view.read (Elt Ideal)
      (prod (M := 100000) (K := 64) (N := 64) (φ₁ := .f32) (φ₂ := .f32) (V c main_v63) (V c main_arg4)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x64) hz]
  rw [body_eq]
  obtain ⟨-, -, -, -, e4⟩ := idx_facts t
  funext j
  show prod (M := 10000) (K := 64) (N := 64) (φ₁ := .f32) (φ₂ := .f32) (iblk1 V c 0 t) (iblk1 V c 1 t) j
    = prod (M := 100000) (K := 64) (N := 64) (φ₁ := .f32) (φ₂ := .f32) (V c main_v63) (V c main_arg4) (((cfg1.win 2).blk t).view.emb j)
  refine prod_entry_congr _ _ _ _ _ _ (fun k => ?_) (fun k => ?_)
  · refine lhs_block V c t _ k _ ?_
    show win1_2.index t (0 : Fin 2) * 10000 + 1 * (j 0).val = win1_2.index t (0 : Fin 2) * 10000 + (j 0).val
    omega
  · refine (rhs_block V c t k _).trans (congrArg (V c main_arg4 : S64x64.Idx → EReal) ?_)
    funext a
    apply Fin.ext
    match a with
    | ⟨0, _⟩ => rfl
    | ⟨1, _⟩ => show (j 1).val = win1_2.index t (1 : Fin 2) * 64 + 1 * (j 1).val; rw [e4]; omega

/-- An index of the output array lies in point `t`'s block iff each coordinate lies in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v64).slice (win1_2.rect t)).set ↔ _
  rw [View.set_slice_whole, Rect.mem_set_unit]
  exact Iff.rfl

/-- The ten row blocks cover the output array: row `r` lies in block `r / 10000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the call its output array is the product of its two input arrays as the call found them. -/
theorem product (c : Dev nD) :
    (dat1 V c).arrAt 2 cfg1.N
      = prod (M := 100000) (K := 64) (N := 64) (φ₁ := .f32) (φ₂ := .f32) (V c main_v63) (V c main_arg4) :=
  (dat1 V c).arrAt_eq_of_cover 2 _ (fun t _ => flushed_eq V c t) cover

end Cert.KernelIdeal.Linear1

end
-- ==== Proof.Linear2.lean ====
/-
  The third linear layer's pallas_call, read as a value over the extended reals.

  The call walks the 100000 rows of its left operand in ten blocks of 10000 rows.  At each grid point the body
  rounds the row block and the whole 64 x 1 weight to a narrower float format (the identity over the extended
  reals), multiplies them into a zero accumulator and stores the 10000 x 1 result, which the pipeline writes back
  as the same row block of the output array.  An entry of a matrix product depends on one row of the left operand
  only, so the block of the product of the blocks is the block of the product of the whole arrays; the ten blocks
  tile the output, so after the call the output array IS the product of the two input arrays as the call found
  them — whatever those were.
-/
import proofs.«162252_j30064771072295_1_alg».proof.Proof.Gen.KernelIdeal.Frame
import proofs.«162252_j30064771072295_1_alg».proof.Proof.LibProdEntries
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.MatmulPlain Idealize.ShloMosaic.ValueIdx

namespace Cert.KernelIdeal.Linear2

open Cert.KernelIdeal Cert.KernelIdeal.Gen

-- the buffer contents the call is entered from: any
variable (V : (c : Dev nD) → (b : Ref sig .tc) → Buf (Elt Ideal) ((c : Thread nD τ).loc b))

theorem hz : (![0, 0] : Fin 2 → Nat) = fun _ => 0 := funext fun a => by fin_cases a <;> rfl

/-- The body's matrix unit carries the dimension numbers of a plain product `l @ r`. -/
theorem plain : IsPlain (M := 10000) (K := 64) (N := 1) dot_S10000x64_S64x1_S10000x1_1_0_0_1_n_n :=
  ⟨rfl, rfl, rfl, rfl, rfl, rfl⟩

/-- What the body stores is the product of the two blocks it loads: the rounding of the operands and the shape cast to the same shape
    change nothing over the extended reals, and the accumulator is zero. -/
theorem body_eq (x : Vec Ideal S10000x64 .f32) (w : Vec Ideal S64x1 .f32) :
    k2_pay1 (F := Ideal) x w = prod (M := 10000) (K := 64) (N := 1) (φ₁ := .f32) (φ₂ := .f32) x w := by
  unfold k2_pay1
  simp only [shapeCast_self]
  exact matmul_zero_eq_prod plain none _ _

/-- The printed index maps at each of the ten grid points: the left operand's and the output's row blocks move together,
    the weight's block and every column block stay at 0. -/
theorem idx_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 :=
  (by decide +kernel : ∀ t : Fin grid2.N, _)

/-- Every one of the ten row blocks of the output is some grid point's. -/
theorem idx_onto : ∀ q : Fin 10, ∃ t : Fin cfg2.N, win2_2.index t = ![q.val, 0] :=
  (by decide +kernel : ∀ q : Fin 10, ∃ t : Fin grid2.N, win2_2.index t = ![q.val, 0])

/-- Row `p` of the left operand's block at point `t` is row `10000 · (block index) + p` of the array. -/
theorem lhs_block (c : Dev nD) (t : Fin cfg2.N) (p : Fin 10000) (k : Fin 64) (P : Fin 100000)
    (hP : P.val = win2_2.index t (0 : Fin 2) * 10000 + p.val) :
    (iblk2 V c 0 t : Vec Ideal S10000x64 .f32) (ix2 p k) = (V c main_v106 : S100000x64.Idx → EReal) (ix2 P k) := by
  obtain ⟨e0, e1, -⟩ := idx_facts t
  unfold iblk2
  rw [View.read_apply]
  show V c main_v106 _ = V c main_v106 _
  congr 1
  funext a
  apply Fin.ext
  match a with
  | ⟨0, _⟩ => show win2_0.index t (0 : Fin 2) * 10000 + 1 * p.val = P.val; rw [e0, hP]; omega
  | ⟨1, _⟩ => show win2_0.index t (1 : Fin 2) * 64 + 1 * k.val = k.val; rw [e1]; omega

/-- The weight's block at every point is the whole weight. -/
theorem rhs_block (c : Dev nD) (t : Fin cfg2.N) (k : Fin 64) (q : Fin 1) :
    (iblk2 V c 1 t : Vec Ideal S64x1 .f32) (ix2 k q) = (V c main_arg6 : S64x1.Idx → EReal) (ix2 k q) := by
  obtain ⟨-, -, e2, e3, -⟩ := idx_facts t
  unfold iblk2
  rw [View.read_apply]
  show V c main_arg6 _ = V c main_arg6 _
  congr 1
  funext a
  apply Fin.ext
  match a with
  | ⟨0, _⟩ => show win2_1.index t (0 : Fin 2) * 64 + 1 * k.val = k.val; rw [e2]; omega
  | ⟨1, _⟩ => show win2_1.index t (1 : Fin 2) * 1 + 1 * q.val = q.val; rw [e3]; omega

/-- What grid point `t` writes back is block `t` of the product of the two input arrays. -/
theorem flushed_eq (c : Dev nD) (t : Fin cfg2.N) :
    (dat2 V c).flushed 2 t = ((cfg2.win 2).blk t).view.read (Elt Ideal)
      (prod (M := 100000) (K := 64) (N := 1) (φ₁ := .f32) (φ₂ := .f32) (V c main_v106) (V c main_arg6)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x1) hz]
  rw [body_eq]
  obtain ⟨-, -, -, -, e4⟩ := idx_facts t
  funext j
  show prod (M := 10000) (K := 64) (N := 1) (φ₁ := .f32) (φ₂ := .f32) (iblk2 V c 0 t) (iblk2 V c 1 t) j
    = prod (M := 100000) (K := 64) (N := 1) (φ₁ := .f32) (φ₂ := .f32) (V c main_v106) (V c main_arg6) (((cfg2.win 2).blk t).view.emb j)
  refine prod_entry_congr _ _ _ _ _ _ (fun k => ?_) (fun k => ?_)
  · refine lhs_block V c t _ k _ ?_
    show win2_2.index t (0 : Fin 2) * 10000 + 1 * (j 0).val = win2_2.index t (0 : Fin 2) * 10000 + (j 0).val
    omega
  · refine (rhs_block V c t k _).trans (congrArg (V c main_arg6 : S64x1.Idx → EReal) ?_)
    funext a
    apply Fin.ext
    match a with
    | ⟨0, _⟩ => rfl
    | ⟨1, _⟩ => show (j 1).val = win2_2.index t (1 : Fin 2) * 1 + 1 * (j 1).val; rw [e4]; omega

/-- An index of the output array lies in point `t`'s block iff each coordinate lies in the block's range on its axis. -/
theorem mem_blk (t : Fin cfg2.N) (i : S100000x1.Idx) :
    i ∈ ((cfg2.win 2).blk t).view.set ↔ ∀ a : Fin 2, win2_2.index t a * S10000x1.size a ≤ (i a).val ∧ (i a).val < win2_2.index t a * S10000x1.size a + S10000x1.size a := by
  show i ∈ ((View.whole main_v107).slice (win2_2.rect t)).set ↔ _
  rw [View.set_slice_whole, Rect.mem_set_unit]
  exact Iff.rfl

/-- The ten row blocks cover the output array: row `r` lies in block `r / 10000`. -/
theorem cover (i : S100000x1.Idx) : ∃ t : Fin cfg2.N, (cfg2.win 2).flush t = true ∧ i ∈ ((cfg2.win 2).blk t).view.set := by
  have hi0 : (i 0).val < 100000 := (i 0).isLt
  have hi1 : (i 1).val < 1 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 1 ≤ (i 1).val ∧ (i 1).val < win2_2.index t (1 : Fin 2) * 1 + 1; omega

/-- After the call its output array is the product of its two input arrays as the call found them. -/
theorem product (c : Dev nD) :
    (dat2 V c).arrAt 2 cfg2.N
      = prod (M := 100000) (K := 64) (N := 1) (φ₁ := .f32) (φ₂ := .f32) (V c main_v106) (V c main_arg6) :=
  (dat2 V c).arrAt_eq_of_cover 2 _ (fun t _ => flushed_eq V c t) cover

end Cert.KernelIdeal.Linear2

end
-- ==== Proof.Keep.lean ====
/-
  What the two programs must agree on between layers.

  After the degrees are computed, every graph-convolution layer reads, besides its own matrix product, the same few
  arrays: the source and destination rows of the edge list, every node's inverse square-root degree, and the
  parameters of the layers still to come.  Neither program writes any of them again, so their agreement, once
  established, is carried through every later stretch of host operations and every product.
-/
import proofs.«162252_j30064771072295_1_alg».proof.Proof.Gen.KernelIdeal.Launch
import proofs.«162252_j30064771072295_1_alg».proof.Proof.RefRun
import Idealize.ShloMosaic.PureOps.Ideal

noncomputable section

namespace Cert.Bridge

open Idealize.ShloMosaic Idealize.ShloMosaic.TcCoe Idealize.ShloMosaic.StableHlo

/-- Buffer contents of the kernel program, and of the reference program, over the extended reals. -/
abbrev KVal := Valuation Cert.KernelIdeal.τ Cert.KernelIdeal.sig (Elt Ideal)
abbrev RVal := Valuation Cert.ReferenceIdeal.τ Cert.ReferenceIdeal.sig (Elt Ideal)

/-- The two programs' buffers agree on what the layers share. -/
structure Keep (WK : KVal) (WR : RVal) : Prop where
  /-- the edges' source rows -/
  src : WK (Proc.devRef .tc Cert.KernelIdeal.main_v1) = WR (Proc.devRef .tc Cert.ReferenceIdeal.main_v1)
  /-- the edges' destination rows -/
  dst : WK (Proc.devRef .tc Cert.KernelIdeal.main_v3) = WR (Proc.devRef .tc Cert.ReferenceIdeal.main_v3)
  /-- every node's inverse square-root degree -/
  dis : WK (Proc.devRef .tc Cert.KernelIdeal.main_v20) = WR (Proc.devRef .tc Cert.ReferenceIdeal.main_v20)
  /-- the first bias -/
  b1 : WK (Proc.devRef .tc Cert.KernelIdeal.main_arg3) = WR (Proc.devRef .tc Cert.ReferenceIdeal.main_arg3)
  /-- the second weight -/
  w2 : WK (Proc.devRef .tc Cert.KernelIdeal.main_arg4) = WR (Proc.devRef .tc Cert.ReferenceIdeal.main_arg4)
  /-- the second bias -/
  b2 : WK (Proc.devRef .tc Cert.KernelIdeal.main_arg5) = WR (Proc.devRef .tc Cert.ReferenceIdeal.main_arg5)
  /-- the third weight -/
  w3 : WK (Proc.devRef .tc Cert.KernelIdeal.main_arg6) = WR (Proc.devRef .tc Cert.ReferenceIdeal.main_arg6)
  /-- the third bias -/
  b3 : WK (Proc.devRef .tc Cert.KernelIdeal.main_arg7) = WR (Proc.devRef .tc Cert.ReferenceIdeal.main_arg7)

end Cert.Bridge

end
-- ==== Proof.Products.lean ====
/-
  Each pallas_call against the reference's matrix product.

  Where the reference multiplies a whole array by a weight with one host `dot_general`, the kernel program launches
  a pallas_call that multiplies it row block by row block.  Over the extended reals both leave the product of the two
  operands in the output array: the call by tiling (the block of the product of a row block is the row block of the
  product), the host operation by definition.  Neither writes anything else.  So if the two programs' buffers agree on
  the operands and on what the layers share before the product, they agree on the product and on what the layers
  share after it.
-/
import proofs.«162252_j30064771072295_1_alg».proof.Proof.Linear0
import proofs.«162252_j30064771072295_1_alg».proof.Proof.Linear1
import proofs.«162252_j30064771072295_1_alg».proof.Proof.Linear2
import proofs.«162252_j30064771072295_1_alg».proof.Proof.Keep

noncomputable section

namespace Cert.Bridge

open Idealize.ShloMosaic Idealize.ShloMosaic.TcCoe Idealize.ShloMosaic.StableHlo Idealize.ShloMosaic.MatmulPlain

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD) (WR : RVal)

/-! ## The first product -/

/-- The reference's `dot_general` carries the dimension numbers of a plain product. -/
theorem plainR1 : IsPlain (M := 100000) (K := 128) (N := 64) Cert.ReferenceIdeal.dot_S100000x128_S128x64_S100000x64_1_0_0_1_n_n :=
  ⟨rfl, rfl, rfl, rfl, rfl, rfl⟩

/-- After the first pallas_call its output array is the product of its operands as it found them. -/
theorem call1_eq :
    Cert.KernelIdeal.Gen.W3 (F := Ideal) m ρ c (Proc.devRef .tc Cert.KernelIdeal.main_v21)
      = prod (M := 100000) (K := 128) (N := 64) (φ₁ := .f32) (φ₂ := .f32) (Cert.KernelIdeal.Gen.W2 (F := Ideal) m ρ c (Proc.devRef .tc Cert.KernelIdeal.main_arg0)) (Cert.KernelIdeal.Gen.W2 (F := Ideal) m ρ c (Proc.devRef .tc Cert.KernelIdeal.main_arg2)) :=
  (Cert.KernelIdeal.Gen.W3_arr m ρ c 2).trans (Cert.KernelIdeal.Linear0.product (Cert.KernelIdeal.Gen.V2 m ρ) c)

/-- After the reference's first `dot_general` its result is the product of its operands. -/
theorem dot1_eq :
    (Cert.ReferenceIdeal.HostRun.mm1 (F := Ideal)).result WR (Proc.devRef .tc Cert.ReferenceIdeal.main_v21)
      = prod (M := 100000) (K := 128) (N := 64) (φ₁ := .f32) (φ₂ := .f32) (WR (Proc.devRef .tc Cert.ReferenceIdeal.main_arg0)) (WR (Proc.devRef .tc Cert.ReferenceIdeal.main_arg2)) :=
  (binary_result ..).trans (dotGeneral_eq_prod plainR1 none .single _ _)

/-- So the two programs agree on the first product when they agree on its operands. -/
theorem product1_eq (hx : Cert.KernelIdeal.Gen.W2 (F := Ideal) m ρ c (Proc.devRef .tc Cert.KernelIdeal.main_arg0) = WR (Proc.devRef .tc Cert.ReferenceIdeal.main_arg0))
    (hw : Cert.KernelIdeal.Gen.W2 (F := Ideal) m ρ c (Proc.devRef .tc Cert.KernelIdeal.main_arg2) = WR (Proc.devRef .tc Cert.ReferenceIdeal.main_arg2)) :
    Cert.KernelIdeal.Gen.W3 (F := Ideal) m ρ c (Proc.devRef .tc Cert.KernelIdeal.main_v21) = (Cert.ReferenceIdeal.HostRun.mm1 (F := Ideal)).result WR (Proc.devRef .tc Cert.ReferenceIdeal.main_v21) := by
  rw [call1_eq, dot1_eq, hx, hw]

/-- Neither the call nor the `dot_general` writes what the layers share. -/
theorem product1_keep (hk : Keep (Cert.KernelIdeal.Gen.W2 (F := Ideal) m ρ c) WR) : Keep (Cert.KernelIdeal.Gen.W3 (F := Ideal) m ρ c) ((Cert.ReferenceIdeal.HostRun.mm1 (F := Ideal)).result WR) where
  src := ((Cert.KernelIdeal.Gen.W3_of_ne m ρ c Cert.KernelIdeal.main_v1 (by decide)).trans hk.src).trans (binary_result_ne _ _ _ _ _ _ _ WR (by decide)).symm
  dst := ((Cert.KernelIdeal.Gen.W3_of_ne m ρ c Cert.KernelIdeal.main_v3 (by decide)).trans hk.dst).trans (binary_result_ne _ _ _ _ _ _ _ WR (by decide)).symm
  dis := ((Cert.KernelIdeal.Gen.W3_of_ne m ρ c Cert.KernelIdeal.main_v20 (by decide)).trans hk.dis).trans (binary_result_ne _ _ _ _ _ _ _ WR (by decide)).symm
  b1 := ((Cert.KernelIdeal.Gen.W3_of_ne m ρ c Cert.KernelIdeal.main_arg3 (by decide)).trans hk.b1).trans (binary_result_ne _ _ _ _ _ _ _ WR (by decide)).symm
  w2 := ((Cert.KernelIdeal.Gen.W3_of_ne m ρ c Cert.KernelIdeal.main_arg4 (by decide)).trans hk.w2).trans (binary_result_ne _ _ _ _ _ _ _ WR (by decide)).symm
  b2 := ((Cert.KernelIdeal.Gen.W3_of_ne m ρ c Cert.KernelIdeal.main_arg5 (by decide)).trans hk.b2).trans (binary_result_ne _ _ _ _ _ _ _ WR (by decide)).symm
  w3 := ((Cert.KernelIdeal.Gen.W3_of_ne m ρ c Cert.KernelIdeal.main_arg6 (by decide)).trans hk.w3).trans (binary_result_ne _ _ _ _ _ _ _ WR (by decide)).symm
  b3 := ((Cert.KernelIdeal.Gen.W3_of_ne m ρ c Cert.KernelIdeal.main_arg7 (by decide)).trans hk.b3).trans (binary_result_ne _ _ _ _ _ _ _ WR (by decide)).symm

/-! ## The second product -/

/-- The reference's `dot_general` carries the dimension numbers of a plain product. -/
theorem plainR2 : IsPlain (M := 100000) (K := 64) (N := 64) Cert.ReferenceIdeal.dot_S100000x64_S64x64_S100000x64_1_0_0_1_n_n :=
  ⟨rfl, rfl, rfl, rfl, rfl, rfl⟩

/-- After the second pallas_call its output array is the product of its operands as it found them. -/
theorem call2_eq :
    Cert.KernelIdeal.Gen.W6 (F := Ideal) m ρ c (Proc.devRef .tc Cert.KernelIdeal.main_v64)
      = prod (M := 100000) (K := 64) (N := 64) (φ₁ := .f32) (φ₂ := .f32) (Cert.KernelIdeal.Gen.W5 (F := Ideal) m ρ c (Proc.devRef .tc Cert.KernelIdeal.main_v63)) (Cert.KernelIdeal.Gen.W5 (F := Ideal) m ρ c (Proc.devRef .tc Cert.KernelIdeal.main_arg4)) :=
  (Cert.KernelIdeal.Gen.W6_arr m ρ c 2).trans (Cert.KernelIdeal.Linear1.product (Cert.KernelIdeal.Gen.V5 m ρ) c)

/-- After the reference's second `dot_general` its result is the product of its operands. -/
theorem dot2_eq :
    (Cert.ReferenceIdeal.HostRun.mm2 (F := Ideal)).result WR (Proc.devRef .tc Cert.ReferenceIdeal.main_v64)
      = prod (M := 100000) (K := 64) (N := 64) (φ₁ := .f32) (φ₂ := .f32) (WR (Proc.devRef .tc Cert.ReferenceIdeal.main_v63)) (WR (Proc.devRef .tc Cert.ReferenceIdeal.main_arg4)) :=
  (binary_result ..).trans (dotGeneral_eq_prod plainR2 none .single _ _)

/-- So the two programs agree on the second product when they agree on its operands. -/
theorem product2_eq (hx : Cert.KernelIdeal.Gen.W5 (F := Ideal) m ρ c (Proc.devRef .tc Cert.KernelIdeal.main_v63) = WR (Proc.devRef .tc Cert.ReferenceIdeal.main_v63))
    (hw : Cert.KernelIdeal.Gen.W5 (F := Ideal) m ρ c (Proc.devRef .tc Cert.KernelIdeal.main_arg4) = WR (Proc.devRef .tc Cert.ReferenceIdeal.main_arg4)) :
    Cert.KernelIdeal.Gen.W6 (F := Ideal) m ρ c (Proc.devRef .tc Cert.KernelIdeal.main_v64) = (Cert.ReferenceIdeal.HostRun.mm2 (F := Ideal)).result WR (Proc.devRef .tc Cert.ReferenceIdeal.main_v64) := by
  rw [call2_eq, dot2_eq, hx, hw]

/-- Neither the call nor the `dot_general` writes what the layers share. -/
theorem product2_keep (hk : Keep (Cert.KernelIdeal.Gen.W5 (F := Ideal) m ρ c) WR) : Keep (Cert.KernelIdeal.Gen.W6 (F := Ideal) m ρ c) ((Cert.ReferenceIdeal.HostRun.mm2 (F := Ideal)).result WR) where
  src := ((Cert.KernelIdeal.Gen.W6_of_ne m ρ c Cert.KernelIdeal.main_v1 (by decide)).trans hk.src).trans (binary_result_ne _ _ _ _ _ _ _ WR (by decide)).symm
  dst := ((Cert.KernelIdeal.Gen.W6_of_ne m ρ c Cert.KernelIdeal.main_v3 (by decide)).trans hk.dst).trans (binary_result_ne _ _ _ _ _ _ _ WR (by decide)).symm
  dis := ((Cert.KernelIdeal.Gen.W6_of_ne m ρ c Cert.KernelIdeal.main_v20 (by decide)).trans hk.dis).trans (binary_result_ne _ _ _ _ _ _ _ WR (by decide)).symm
  b1 := ((Cert.KernelIdeal.Gen.W6_of_ne m ρ c Cert.KernelIdeal.main_arg3 (by decide)).trans hk.b1).trans (binary_result_ne _ _ _ _ _ _ _ WR (by decide)).symm
  -- the call reads this array through an input window, and leaves an input window's array as it found it
  w2 := (((Cert.KernelIdeal.Gen.W6_arr m ρ c 1).trans (((Cert.KernelIdeal.Gen.dat1 (Cert.KernelIdeal.Gen.V5 m ρ) c).arrAt_in 1 rfl _).trans (Cert.KernelIdeal.Gen.A_eq1 (Cert.KernelIdeal.Gen.V5 m ρ) c 1))).trans hk.w2).trans
    (binary_result_ne _ _ _ _ _ _ _ WR (by decide)).symm
  b2 := ((Cert.KernelIdeal.Gen.W6_of_ne m ρ c Cert.KernelIdeal.main_arg5 (by decide)).trans hk.b2).trans (binary_result_ne _ _ _ _ _ _ _ WR (by decide)).symm
  w3 := ((Cert.KernelIdeal.Gen.W6_of_ne m ρ c Cert.KernelIdeal.main_arg6 (by decide)).trans hk.w3).trans (binary_result_ne _ _ _ _ _ _ _ WR (by decide)).symm
  b3 := ((Cert.KernelIdeal.Gen.W6_of_ne m ρ c Cert.KernelIdeal.main_arg7 (by decide)).trans hk.b3).trans (binary_result_ne _ _ _ _ _ _ _ WR (by decide)).symm

/-! ## The third product -/

/-- The reference's `dot_general` carries the dimension numbers of a plain product. -/
theorem plainR3 : IsPlain (M := 100000) (K := 64) (N := 1) Cert.ReferenceIdeal.dot_S100000x64_S64x1_S100000x1_1_0_0_1_n_n :=
  ⟨rfl, rfl, rfl, rfl, rfl, rfl⟩

/-- After the third pallas_call its output array is the product of its operands as it found them. -/
theorem call3_eq :
    Cert.KernelIdeal.Gen.W9 (F := Ideal) m ρ c (Proc.devRef .tc Cert.KernelIdeal.main_v107)
      = prod (M := 100000) (K := 64) (N := 1) (φ₁ := .f32) (φ₂ := .f32) (Cert.KernelIdeal.Gen.W8 (F := Ideal) m ρ c (Proc.devRef .tc Cert.KernelIdeal.main_v106)) (Cert.KernelIdeal.Gen.W8 (F := Ideal) m ρ c (Proc.devRef .tc Cert.KernelIdeal.main_arg6)) :=
  (Cert.KernelIdeal.Gen.W9_arr m ρ c 2).trans (Cert.KernelIdeal.Linear2.product (Cert.KernelIdeal.Gen.V8 m ρ) c)

/-- After the reference's third `dot_general` its result is the product of its operands. -/
theorem dot3_eq :
    (Cert.ReferenceIdeal.HostRun.mm3 (F := Ideal)).result WR (Proc.devRef .tc Cert.ReferenceIdeal.main_v107)
      = prod (M := 100000) (K := 64) (N := 1) (φ₁ := .f32) (φ₂ := .f32) (WR (Proc.devRef .tc Cert.ReferenceIdeal.main_v106)) (WR (Proc.devRef .tc Cert.ReferenceIdeal.main_arg6)) :=
  (binary_result ..).trans (dotGeneral_eq_prod plainR3 none .single _ _)

/-- So the two programs agree on the third product when they agree on its operands. -/
theorem product3_eq (hx : Cert.KernelIdeal.Gen.W8 (F := Ideal) m ρ c (Proc.devRef .tc Cert.KernelIdeal.main_v106) = WR (Proc.devRef .tc Cert.ReferenceIdeal.main_v106))
    (hw : Cert.KernelIdeal.Gen.W8 (F := Ideal) m ρ c (Proc.devRef .tc Cert.KernelIdeal.main_arg6) = WR (Proc.devRef .tc Cert.ReferenceIdeal.main_arg6)) :
    Cert.KernelIdeal.Gen.W9 (F := Ideal) m ρ c (Proc.devRef .tc Cert.KernelIdeal.main_v107) = (Cert.ReferenceIdeal.HostRun.mm3 (F := Ideal)).result WR (Proc.devRef .tc Cert.ReferenceIdeal.main_v107) := by
  rw [call3_eq, dot3_eq, hx, hw]

/-- Neither the call nor the `dot_general` writes what the layers share. -/
theorem product3_keep (hk : Keep (Cert.KernelIdeal.Gen.W8 (F := Ideal) m ρ c) WR) : Keep (Cert.KernelIdeal.Gen.W9 (F := Ideal) m ρ c) ((Cert.ReferenceIdeal.HostRun.mm3 (F := Ideal)).result WR) where
  src := ((Cert.KernelIdeal.Gen.W9_of_ne m ρ c Cert.KernelIdeal.main_v1 (by decide)).trans hk.src).trans (binary_result_ne _ _ _ _ _ _ _ WR (by decide)).symm
  dst := ((Cert.KernelIdeal.Gen.W9_of_ne m ρ c Cert.KernelIdeal.main_v3 (by decide)).trans hk.dst).trans (binary_result_ne _ _ _ _ _ _ _ WR (by decide)).symm
  dis := ((Cert.KernelIdeal.Gen.W9_of_ne m ρ c Cert.KernelIdeal.main_v20 (by decide)).trans hk.dis).trans (binary_result_ne _ _ _ _ _ _ _ WR (by decide)).symm
  b1 := ((Cert.KernelIdeal.Gen.W9_of_ne m ρ c Cert.KernelIdeal.main_arg3 (by decide)).trans hk.b1).trans (binary_result_ne _ _ _ _ _ _ _ WR (by decide)).symm
  w2 := ((Cert.KernelIdeal.Gen.W9_of_ne m ρ c Cert.KernelIdeal.main_arg4 (by decide)).trans hk.w2).trans (binary_result_ne _ _ _ _ _ _ _ WR (by decide)).symm
  b2 := ((Cert.KernelIdeal.Gen.W9_of_ne m ρ c Cert.KernelIdeal.main_arg5 (by decide)).trans hk.b2).trans (binary_result_ne _ _ _ _ _ _ _ WR (by decide)).symm
  -- the call reads this array through an input window, and leaves an input window's array as it found it
  w3 := (((Cert.KernelIdeal.Gen.W9_arr m ρ c 1).trans (((Cert.KernelIdeal.Gen.dat2 (Cert.KernelIdeal.Gen.V8 m ρ) c).arrAt_in 1 rfl _).trans (Cert.KernelIdeal.Gen.A_eq2 (Cert.KernelIdeal.Gen.V8 m ρ) c 1))).trans hk.w3).trans
    (binary_result_ne _ _ _ _ _ _ _ WR (by decide)).symm
  b3 := ((Cert.KernelIdeal.Gen.W9_of_ne m ρ c Cert.KernelIdeal.main_arg7 (by decide)).trans hk.b3).trans (binary_result_ne _ _ _ _ _ _ _ WR (by decide)).symm

end Cert.Bridge

end
-- ==== Proof.StageNorm.lean ====
/-
  The stretch before the first product, in both programs.

  Both programs compute, from the edge list alone, the edges' source and destination rows and every node's inverse
  square-root degree, by the same operations in the same order; and neither touches a parameter.  So from buffers
  agreeing on the arguments, the two programs reach buffers agreeing on all of these.
-/
import proofs.«162252_j30064771072295_1_alg».proof.Proof.Keep

noncomputable section

namespace Cert.Bridge

open Idealize.ShloMosaic Idealize.ShloMosaic.TcCoe Idealize.ShloMosaic.StableHlo

variable (WK : KVal) (WR : RVal)

/-- The two programs' arguments agree. -/
structure ArgsAgree (WK : KVal) (WR : RVal) : Prop where
  a0 : WK (Proc.devRef .tc Cert.KernelIdeal.main_arg0) = WR (Proc.devRef .tc Cert.ReferenceIdeal.main_arg0)
  a1 : WK (Proc.devRef .tc Cert.KernelIdeal.main_arg1) = WR (Proc.devRef .tc Cert.ReferenceIdeal.main_arg1)
  a2 : WK (Proc.devRef .tc Cert.KernelIdeal.main_arg2) = WR (Proc.devRef .tc Cert.ReferenceIdeal.main_arg2)
  a3 : WK (Proc.devRef .tc Cert.KernelIdeal.main_arg3) = WR (Proc.devRef .tc Cert.ReferenceIdeal.main_arg3)
  a4 : WK (Proc.devRef .tc Cert.KernelIdeal.main_arg4) = WR (Proc.devRef .tc Cert.ReferenceIdeal.main_arg4)
  a5 : WK (Proc.devRef .tc Cert.KernelIdeal.main_arg5) = WR (Proc.devRef .tc Cert.ReferenceIdeal.main_arg5)
  a6 : WK (Proc.devRef .tc Cert.KernelIdeal.main_arg6) = WR (Proc.devRef .tc Cert.ReferenceIdeal.main_arg6)
  a7 : WK (Proc.devRef .tc Cert.KernelIdeal.main_arg7) = WR (Proc.devRef .tc Cert.ReferenceIdeal.main_arg7)

set_option maxHeartbeats 8000000 in
/-- After the first stretch the programs agree on the edges' rows, on the inverse square-root degrees and on the
    parameters the layers will use. -/
theorem norm_keep (h : ArgsAgree WK WR) : Keep (after (Cert.KernelIdeal.Gen.hostOps0_1 (F := Ideal)) (after (Cert.KernelIdeal.Gen.hostOps0 (F := Ideal)) WK)) (after (Cert.ReferenceIdeal.HostRun.opsNorm (F := Ideal)) WR) where
  src := by
    unfold Cert.ReferenceIdeal.HostRun.opsNorm
    after_results_simp
    rw [h.a1]
    rfl
  dst := by
    unfold Cert.ReferenceIdeal.HostRun.opsNorm
    after_results_simp
    rw [h.a1]
    rfl
  dis := by
    unfold Cert.ReferenceIdeal.HostRun.opsNorm
    after_results_simp
    rw [h.a1]
    rfl
  b1 := by
    unfold Cert.ReferenceIdeal.HostRun.opsNorm
    after_results_simp
    exact h.a3
  w2 := by
    unfold Cert.ReferenceIdeal.HostRun.opsNorm
    after_results_simp
    exact h.a4
  b2 := by
    unfold Cert.ReferenceIdeal.HostRun.opsNorm
    after_results_simp
    exact h.a5
  w3 := by
    unfold Cert.ReferenceIdeal.HostRun.opsNorm
    after_results_simp
    exact h.a6
  b3 := by
    unfold Cert.ReferenceIdeal.HostRun.opsNorm
    after_results_simp
    exact h.a7

set_option maxHeartbeats 8000000 in
/-- The first product's left operand, the node features, is still the argument. -/
theorem norm_x (h : ArgsAgree WK WR) :
    after (Cert.KernelIdeal.Gen.hostOps0_1 (F := Ideal)) (after (Cert.KernelIdeal.Gen.hostOps0 (F := Ideal)) WK) (Proc.devRef .tc Cert.KernelIdeal.main_arg0)
      = after (Cert.ReferenceIdeal.HostRun.opsNorm (F := Ideal)) WR (Proc.devRef .tc Cert.ReferenceIdeal.main_arg0) := by
    unfold Cert.ReferenceIdeal.HostRun.opsNorm
    after_results_simp
    exact h.a0

set_option maxHeartbeats 8000000 in
/-- The first product's right operand, the first weight, is still the argument. -/
theorem norm_w1 (h : ArgsAgree WK WR) :
    after (Cert.KernelIdeal.Gen.hostOps0_1 (F := Ideal)) (after (Cert.KernelIdeal.Gen.hostOps0 (F := Ideal)) WK) (Proc.devRef .tc Cert.KernelIdeal.main_arg2)
      = after (Cert.ReferenceIdeal.HostRun.opsNorm (F := Ideal)) WR (Proc.devRef .tc Cert.ReferenceIdeal.main_arg2) := by
    unfold Cert.ReferenceIdeal.HostRun.opsNorm
    after_results_simp
    exact h.a2

end Cert.Bridge

end
-- ==== Proof.StageAgg1.lean ====
/-
  The first layer after its product, in both programs.

  Given the layer's product, both programs weight every edge by its two end nodes' inverse square-root degrees,
  gather the product's rows at the edges' sources, scale them, scatter-add them at the edges' destinations, add the
  self-loop term and the bias, and take the maximum with zero — the same operations in the same order.  So from
  buffers agreeing on the product and on what the layers share, the two programs reach buffers agreeing on the
  layer's output and still on what the layers share.
-/
import proofs.«162252_j30064771072295_1_alg».proof.Proof.Keep

noncomputable section

namespace Cert.Bridge

open Idealize.ShloMosaic Idealize.ShloMosaic.TcCoe Idealize.ShloMosaic.StableHlo

variable (WK : KVal) (WR : RVal)

set_option maxHeartbeats 8000000 in
/-- The first layer's stretch writes none of what the layers share. -/
theorem agg1_keep (hk : Keep WK WR) : Keep (after (Cert.KernelIdeal.Gen.hostOps1_1 (F := Ideal)) (after (Cert.KernelIdeal.Gen.hostOps1 (F := Ideal)) WK)) (after (Cert.ReferenceIdeal.HostRun.opsAgg1 (F := Ideal)) WR) where
  src := by
    unfold Cert.ReferenceIdeal.HostRun.opsAgg1
    after_results_simp
    exact hk.src
  dst := by
    unfold Cert.ReferenceIdeal.HostRun.opsAgg1
    after_results_simp
    exact hk.dst
  dis := by
    unfold Cert.ReferenceIdeal.HostRun.opsAgg1
    after_results_simp
    exact hk.dis
  b1 := by
    unfold Cert.ReferenceIdeal.HostRun.opsAgg1
    after_results_simp
    exact hk.b1
  w2 := by
    unfold Cert.ReferenceIdeal.HostRun.opsAgg1
    after_results_simp
    exact hk.w2
  b2 := by
    unfold Cert.ReferenceIdeal.HostRun.opsAgg1
    after_results_simp
    exact hk.b2
  w3 := by
    unfold Cert.ReferenceIdeal.HostRun.opsAgg1
    after_results_simp
    exact hk.w3
  b3 := by
    unfold Cert.ReferenceIdeal.HostRun.opsAgg1
    after_results_simp
    exact hk.b3

set_option maxHeartbeats 16000000 in
/-- The first layer's output: the same function of the product, the edges' rows, the inverse square-root degrees
    and the bias in both programs. -/
theorem agg1_out (hk : Keep WK WR) (hh : WK (Proc.devRef .tc Cert.KernelIdeal.main_v21) = WR (Proc.devRef .tc Cert.ReferenceIdeal.main_v21)) :
    after (Cert.KernelIdeal.Gen.hostOps1_1 (F := Ideal)) (after (Cert.KernelIdeal.Gen.hostOps1 (F := Ideal)) WK) (Proc.devRef .tc Cert.KernelIdeal.main_v63)
      = after (Cert.ReferenceIdeal.HostRun.opsAgg1 (F := Ideal)) WR (Proc.devRef .tc Cert.ReferenceIdeal.main_v63) := by
    unfold Cert.ReferenceIdeal.HostRun.opsAgg1
    after_results_simp
    rw [hh, hk.src, hk.dst, hk.dis, hk.b1]
    rfl

end Cert.Bridge

end
-- ==== Proof.StageAgg2.lean ====
/-
  The second layer after its product, in both programs.

  Given the layer's product, both programs weight every edge by its two end nodes' inverse square-root degrees,
  gather the product's rows at the edges' sources, scale them, scatter-add them at the edges' destinations, add the
  self-loop term and the bias, and take the maximum with zero — the same operations in the same order.  So from
  buffers agreeing on the product and on what the layers share, the two programs reach buffers agreeing on the
  layer's output and still on what the layers share.
-/
import proofs.«162252_j30064771072295_1_alg».proof.Proof.Keep

noncomputable section

namespace Cert.Bridge

open Idealize.ShloMosaic Idealize.ShloMosaic.TcCoe Idealize.ShloMosaic.StableHlo

variable (WK : KVal) (WR : RVal)

set_option maxHeartbeats 8000000 in
/-- The second layer's stretch writes none of what the layers share. -/
theorem agg2_keep (hk : Keep WK WR) : Keep (after (Cert.KernelIdeal.Gen.hostOps2_1 (F := Ideal)) (after (Cert.KernelIdeal.Gen.hostOps2 (F := Ideal)) WK)) (after (Cert.ReferenceIdeal.HostRun.opsAgg2 (F := Ideal)) WR) where
  src := by
    unfold Cert.ReferenceIdeal.HostRun.opsAgg2
    after_results_simp
    exact hk.src
  dst := by
    unfold Cert.ReferenceIdeal.HostRun.opsAgg2
    after_results_simp
    exact hk.dst
  dis := by
    unfold Cert.ReferenceIdeal.HostRun.opsAgg2
    after_results_simp
    exact hk.dis
  b1 := by
    unfold Cert.ReferenceIdeal.HostRun.opsAgg2
    after_results_simp
    exact hk.b1
  w2 := by
    unfold Cert.ReferenceIdeal.HostRun.opsAgg2
    after_results_simp
    exact hk.w2
  b2 := by
    unfold Cert.ReferenceIdeal.HostRun.opsAgg2
    after_results_simp
    exact hk.b2
  w3 := by
    unfold Cert.ReferenceIdeal.HostRun.opsAgg2
    after_results_simp
    exact hk.w3
  b3 := by
    unfold Cert.ReferenceIdeal.HostRun.opsAgg2
    after_results_simp
    exact hk.b3

set_option maxHeartbeats 16000000 in
/-- The second layer's output: the same function of the product, the edges' rows, the inverse square-root degrees
    and the bias in both programs. -/
theorem agg2_out (hk : Keep WK WR) (hh : WK (Proc.devRef .tc Cert.KernelIdeal.main_v64) = WR (Proc.devRef .tc Cert.ReferenceIdeal.main_v64)) :
    after (Cert.KernelIdeal.Gen.hostOps2_1 (F := Ideal)) (after (Cert.KernelIdeal.Gen.hostOps2 (F := Ideal)) WK) (Proc.devRef .tc Cert.KernelIdeal.main_v106)
      = after (Cert.ReferenceIdeal.HostRun.opsAgg2 (F := Ideal)) WR (Proc.devRef .tc Cert.ReferenceIdeal.main_v106) := by
    unfold Cert.ReferenceIdeal.HostRun.opsAgg2
    after_results_simp
    rw [hh, hk.src, hk.dst, hk.dis, hk.b2]
    rfl

end Cert.Bridge

end
-- ==== Proof.StageAgg3.lean ====
/-
  The third layer after its product, in both programs.

  Given the layer's product (one column), both programs weight every edge by its two end nodes' inverse square-root
  degrees, gather the product at the edges' sources, scale, scatter-add at the edges' destinations, add the self-loop
  term and the last bias — the same operations in the same order, and no maximum with zero this time.  So from buffers
  agreeing on the product and on what the layers share, the two programs end with the same result array.
-/
import proofs.«162252_j30064771072295_1_alg».proof.Proof.Keep

noncomputable section

namespace Cert.Bridge

open Idealize.ShloMosaic Idealize.ShloMosaic.TcCoe Idealize.ShloMosaic.StableHlo

variable (WK : KVal) (WR : RVal)

set_option maxHeartbeats 16000000 in
/-- The result array: the same function of the last product, the edges' rows, the inverse square-root degrees and the
    last bias in both programs. -/
theorem agg3_out (hk : Keep WK WR) (hh : WK (Proc.devRef .tc Cert.KernelIdeal.main_v107) = WR (Proc.devRef .tc Cert.ReferenceIdeal.main_v107)) :
    after (Cert.KernelIdeal.Gen.hostOps3 (F := Ideal)) WK (Proc.devRef .tc Cert.KernelIdeal.main_v146)
      = after (Cert.ReferenceIdeal.HostRun.opsAgg3 (F := Ideal)) WR (Proc.devRef .tc Cert.ReferenceIdeal.main_v146) := by
    unfold Cert.ReferenceIdeal.HostRun.opsAgg3
    after_results_simp
    rw [hh, hk.src, hk.dst, hk.dis, hk.b3]
    rfl

end Cert.Bridge

end
-- ==== Proof.Bridge.lean ====
/-
  The kernel program and the reference end with the same result.

  Both programs are the same line of host operations, except that where the reference has a matrix product the kernel
  program has a pallas_call.  Walk the two lines side by side from launches that agree on the arguments: the stretch
  before the first product leaves them agreeing on the edges' rows, the inverse square-root degrees and the
  parameters; each product, computed either way, is the same array; each stretch after a product computes the same
  function of it.  So the last stretch leaves the same result array in both.
-/
import proofs.«162252_j30064771072295_1_alg».proof.Proof.Products
import proofs.«162252_j30064771072295_1_alg».proof.Proof.StageNorm
import proofs.«162252_j30064771072295_1_alg».proof.Proof.StageAgg1
import proofs.«162252_j30064771072295_1_alg».proof.Proof.StageAgg2
import proofs.«162252_j30064771072295_1_alg».proof.Proof.StageAgg3

noncomputable section

namespace Cert.Bridge

open Idealize.ShloMosaic Idealize.ShloMosaic.TcCoe Idealize.ShloMosaic.StableHlo

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
  (m' : (ℓ : Loc Cert.ReferenceIdeal.nD Cert.ReferenceIdeal.τ Cert.ReferenceIdeal.sig) → Buf (Elt Ideal) ℓ)

/-- From launches agreeing on the arguments, the kernel program's last boundary holds at the result array what the
    reference's whole line leaves there. -/
theorem result_eq (hag : ArgsAgree (Cert.KernelIdeal.Gen.W0 (F := Ideal) m ρ c) (launchContents m' c)) :
    Cert.KernelIdeal.Gen.W10 (F := Ideal) m ρ c (Proc.devRef .tc Cert.KernelIdeal.main_v146)
      = after (Cert.ReferenceIdeal.HostRun.ops (F := Ideal)) (launchContents m' c) (Proc.devRef .tc Cert.ReferenceIdeal.main_v146) := by
  rw [Cert.ReferenceIdeal.HostRun.after_ops]
  -- before the first product
  have k2 : Keep (Cert.KernelIdeal.Gen.W2 (F := Ideal) m ρ c) (after (Cert.ReferenceIdeal.HostRun.opsNorm (F := Ideal)) (launchContents m' c)) := norm_keep _ _ hag
  have x2 := norm_x _ _ hag
  have w2 := norm_w1 _ _ hag
  -- the first product and the first layer
  have k3 := product1_keep m ρ c _ k2
  have h3 := product1_eq m ρ c _ x2 w2
  have k5 : Keep (Cert.KernelIdeal.Gen.W5 (F := Ideal) m ρ c) _ := agg1_keep _ _ k3
  have h5 : Cert.KernelIdeal.Gen.W5 (F := Ideal) m ρ c (Proc.devRef .tc Cert.KernelIdeal.main_v63) = _ := agg1_out _ _ k3 h3
  -- the second product and the second layer
  have k6 := product2_keep m ρ c _ k5
  have h6 := product2_eq m ρ c _ h5 k5.w2
  have k8 : Keep (Cert.KernelIdeal.Gen.W8 (F := Ideal) m ρ c) _ := agg2_keep _ _ k6
  have h8 : Cert.KernelIdeal.Gen.W8 (F := Ideal) m ρ c (Proc.devRef .tc Cert.KernelIdeal.main_v106) = _ := agg2_out _ _ k6 h6
  -- the third product and the third layer
  have k9 := product3_keep m ρ c _ k8
  have h9 := product3_eq m ρ c _ h8 k8.w3
  exact agg3_out _ _ k9 h9

end Cert.Bridge

end
-- ==== Proof.lean ====
/-
  Three graph-convolution layers on a 100000-node graph: a Pallas kernel program against its jnp reference, equal over
  the extended reals.

  The two programs run the same host operations — the degrees from the edge list, and per layer the gather along the
  edges' sources, the scaling by the end nodes' inverse square-root degrees, the scatter-add at the destinations, the
  self-loop term, the bias and (for the first two layers) the maximum with zero.  They differ only in the three matrix
  products `h @ W`: the reference takes each with one host `dot_general`, the kernel program with a pallas_call over
  ten blocks of 10000 rows whose body rounds its operands to a narrower float format and multiplies them into a zero
  accumulator.  Over the extended reals the rounding is the identity, both spellings of the product are the sum over
  the shared axis, and a row block of a product is the product of the row block; so each call leaves exactly the
  reference's product, and everything computed from it agrees.  No law that could fail at an infinity is used, so the
  finiteness of the inputs is not needed.

  The kernel programs' frames are the generated ones; the reference, a straight line of host operations, runs to its
  operations' results composed, which leave the arguments alone.  No operation was rewritten by the idealization, so
  there is nothing to preserve.
-/
import proofs.«162252_j30064771072295_1_alg».proof.Defs
import proofs.«162252_j30064771072295_1_alg».proof.Proof.Gen.Kernel
import proofs.«162252_j30064771072295_1_alg».proof.Proof.Gen.Kernel.Frame
import proofs.«162252_j30064771072295_1_alg».proof.Proof.Gen.KernelIdeal
import proofs.«162252_j30064771072295_1_alg».proof.Proof.Gen.KernelIdeal.Frame
import proofs.«162252_j30064771072295_1_alg».proof.Proof.Gen.ReferenceIdeal
import proofs.«162252_j30064771072295_1_alg».proof.Proof.Gen.Pre_finite_inputs
import proofs.«162252_j30064771072295_1_alg».proof.Proof.KernelRun
import proofs.«162252_j30064771072295_1_alg».proof.Proof.RefKept
import proofs.«162252_j30064771072295_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs to its operations' results composed, and none of them writes an argument. -/
theorem frame_reference : Cert.frame_ReferenceIdeal := fun m ρ _ =>
  (θ_run Cert.ReferenceIdeal.defs _ _).mono (fun _ h c =>
    ⟨(h c Cert.ReferenceIdeal.main_arg0).trans (Cert.ReferenceIdeal.HostRun.kept_arg0 _),
      (h c Cert.ReferenceIdeal.main_arg1).trans (Cert.ReferenceIdeal.HostRun.kept_arg1 _),
      (h c Cert.ReferenceIdeal.main_arg2).trans (Cert.ReferenceIdeal.HostRun.kept_arg2 _),
      (h c Cert.ReferenceIdeal.main_arg3).trans (Cert.ReferenceIdeal.HostRun.kept_arg3 _),
      (h c Cert.ReferenceIdeal.main_arg4).trans (Cert.ReferenceIdeal.HostRun.kept_arg4 _),
      (h c Cert.ReferenceIdeal.main_arg5).trans (Cert.ReferenceIdeal.HostRun.kept_arg5 _),
      (h c Cert.ReferenceIdeal.main_arg6).trans (Cert.ReferenceIdeal.HostRun.kept_arg6 _),
      (h c Cert.ReferenceIdeal.main_arg7).trans (Cert.ReferenceIdeal.HostRun.kept_arg7 _)⟩)
    (Cert.ReferenceIdeal.HostRun.run (F := Ideal) m ρ)

/-- The two programs, run from memories agreeing on the arguments, end with the same result array: the kernel program at
    its last boundary's contents, the reference at its whole line's result, which are equal. -/
theorem algebraic : Cert.algebraic_KernelIdeal_ReferenceIdeal := by
  intro m ρ m' ρ' _ hagree
  refine ⟨fun c => Cert.KernelIdeal.Gen.W10 (F := Ideal) m ρ c (Proc.devRef .tc Cert.KernelIdeal.main_v146), Cert.KernelIdeal.HostRun.run (F := Ideal) m ρ, ?_⟩
  refine (θ_run Cert.ReferenceIdeal.defs _ _).mono (fun _ h c => ?_) (Cert.ReferenceIdeal.HostRun.run (F := Ideal) m' ρ')
  obtain ⟨e0, e1, e2, e3, e4, e5, e6, e7⟩ := hagree c
  exact ⟨(h c Cert.ReferenceIdeal.main_v146).trans
      (Cert.Bridge.result_eq m ρ c m' ⟨e0.symm, e1.symm, e2.symm, e3.symm, e4.symm, e5.symm, e6.symm, e7.symm⟩).symm,
      (h c Cert.ReferenceIdeal.main_arg0).trans (Cert.ReferenceIdeal.HostRun.kept_arg0 _),
      (h c Cert.ReferenceIdeal.main_arg1).trans (Cert.ReferenceIdeal.HostRun.kept_arg1 _),
      (h c Cert.ReferenceIdeal.main_arg2).trans (Cert.ReferenceIdeal.HostRun.kept_arg2 _),
      (h c Cert.ReferenceIdeal.main_arg3).trans (Cert.ReferenceIdeal.HostRun.kept_arg3 _),
      (h c Cert.ReferenceIdeal.main_arg4).trans (Cert.ReferenceIdeal.HostRun.kept_arg4 _),
      (h c Cert.ReferenceIdeal.main_arg5).trans (Cert.ReferenceIdeal.HostRun.kept_arg5 _),
      (h c Cert.ReferenceIdeal.main_arg6).trans (Cert.ReferenceIdeal.HostRun.kept_arg6 _),
      (h c Cert.ReferenceIdeal.main_arg7).trans (Cert.ReferenceIdeal.HostRun.kept_arg7 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
